-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S1024x4096 : Shape := ⟨2, ![1024, 4096]⟩
abbrev S1024 : Shape := ⟨1, ![1024]⟩
abbrev S10x1024 : Shape := ⟨2, ![10, 1024]⟩
abbrev S10 : Shape := ⟨1, ![10]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S10 .f32) (main_v83 : IVec S_ 1) (main_v84 : FVec F S10x1024 .f32) (main_cst_32 : FVec F S_ .f32) : IVec S_ 1 :=
  let main_v85 : FVec F S10x1024 .f32 := broadcastInDim S10x1024 ![] bcast_S_S10x1024 main_cst_32
  let main_v86 : IVec S10x1024 1 := cmpf .olt main_v84 main_v85
  let main_c_33 : IVec S_ 1 := constantI S_ 1 1#1
  let main_v87 : IVec S_ 1 := (fun x v => Host.reduce IntOp.andi x v reducesTo_S10x1024_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg14 : FVec F S1024 .f32) (main_arg15 : FVec F S1024 .f32) (main_arg16 : FVec F S1024 .f32) (main_arg17 : FVec F S10x1024 .f32) (main_arg18 : FVec F S10 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S10x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) (main_v48 : IVec S_ 1) (main_v49 : FVec F S4x1024 .f32) (main_v50 : FVec F S4x1024 .f32) : IVec S_ 1 :=
  let main_v51 : IVec S4x1024 1 := cmpf .olt main_v49 main_v50
  let main_c_19 : IVec S_ 1 := constantI S_ 1 1#1
  let main_v52 : IVec S_ 1 := (fun x v => Host.reduce IntOp.andi x v reducesTo_S4x1024_S_d0_1 h_S_) main_v51 main_c_19
  let main_v53 : IVec S_ 1 := andi main_v48 main_v52
  let main_v54 : FVec F S4x1024x1024 .f32 := Host.absf main_arg11
  let main_cst_20 : FVec F S_ .f32 := constant S_ .f32 0x7F800000#32
  let main_v55 : FVec F S4x1024x1024 .f32 := broadcastInDim S4x1024x1024 ![] bcast_S_S4x1024x1024 main_cst_20
  let main_v56 : IVec S4x1024x1024 1 := cmpf .olt main_v54 main_v55
  let main_c_21 : IVec S_ 1 := constantI S_ 1 1#1
  let main_v57 : IVec S_ 1 := (fun x v => Host.reduce IntOp.andi x v reducesTo_S4x1024x1024_S_d0_1_2 h_S_) main_v56 main_c_21
  let main_v58 : IVec S_ 1 := andi main_v53 main_v57
  let main_v59 : FVec F S4x1024 .f32 := Host.absf main_arg12
  let main_cst_22 : FVec F S_ .f32 := constant S_ .f32 0x7F800000#32
  let main_v60 : FVec F S4x1024 .f32 := broadcastInDim S4x1024 ![] bcast_S_S4x1024 main_cst_22
  let main_v61 : IVec S4x1024 1 := cmpf .olt main_v59 main_v60
  let main_c_23 : IVec S_ 1 := constantI S_ 1 1#1
  let main_v62 : IVec S_ 1 := (fun x v => Host.reduce IntOp.andi x v reducesTo_S4x1024_S_d0_1 h_S_) main_v61 main_c_23
  let main_v63 : IVec S_ 1 := andi main_v58 main_v62
  let main_v64 : FVec F S1024x4096 .f32 := Host.absf main_arg13
  let main_cst_24 : FVec F S_ .f32 := constant S_ .f32 0x7F800000#32
  let main_v65 : FVec F S1024x4096 .f32 := broadcastInDim S1024x4096 ![] bcast_S_S1024x4096 main_cst_24
  let main_v66 : IVec S1024x4096 1 := cmpf .olt main_v64 main_v65
  let main_c_25 : IVec S_ 1 := constantI S_ 1 1#1
  let main_v67 : IVec S_ 1 := (fun x v => Host.reduce IntOp.andi x v reducesTo_S1024x4096_S_d0_1 h_S_) main_v66 main_c_25
  fn_part4 (F := F) main_arg14 main_arg15 main_arg16 main_arg17 main_arg18 main_v63 main_v67

def fn_part2 {F : FTy → Type} [FloatOps F] (main_arg7 : FVec F S1024 .f32) (main_arg8 : FVec F S1024 .f32) (main_arg9 : FVec F S4x1024x1024 .f32) (main_arg10 : FVec F S4x1024 .f32) (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S4x1024x1024 .f32 := Host.absf main_arg9
  let main_cst_16 : FVec F S_ .f32 := constant S_ .f32 0x7F800000#32
  let main_v45 : FVec F S4x1024x1024 .f32 := broadcastInDim S4x1024x1024 ![] bcast_S_S4x1024x1024 main_cst_16
  let main_v46 : IVec S4x1024x1024 1 := cmpf .olt main_v44 main_v45
  let main_c_17 : IVec S_ 1 := constantI S_ 1 1#1
  let main_v47 : IVec S_ 1 := (fun x v => Host.reduce IntOp.andi x v reducesTo_S4x1024x1024_S_d0_1_2 h_S_) main_v46 main_c_17
  let main_v48 : IVec S_ 1 := andi main_v43 main_v47
  let main_v49 : FVec F S4x1024 .f32 := Host.absf main_arg10
  let main_cst_18 : FVec F S_ .f32 := constant S_ .f32 0x7F800000#32
  let main_v50 : FVec F S4x1024 .f32 := broadcastInDim S4x1024 ![] bcast_S_S4x1024 main_cst_18
  fn_part3 (F := F) main_arg11 main_arg12 main_arg13 main_arg14 main_arg15 main_arg16 main_arg17 main_arg18 main_v48 main_v49 main_v50

def fn_part1 {F : FTy → Type} [FloatOps F] (main_arg4 : FVec F S4x1024 .f32) (main_arg5 : FVec F S1024x4096 .f32) (main_arg6 : FVec F S1024 .f32) (main_arg7 : FVec F S1024 .f32) (main_arg8 : FVec F S1024 .f32) (main_arg9 : FVec F S4x1024x1024 .f32) (main_arg10 : FVec F S4x1024 .f32) (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S4x1024x1024 .f32) (main_arg2 : FVec F S4x1024 .f32) (main_arg3 : FVec F S4x1024x1024 .f32) (main_arg4 : FVec F S4x1024 .f32) (main_arg5 : FVec F S1024x4096 .f32) (main_arg6 : FVec F S1024 .f32) (main_arg7 : FVec F S1024 .f32) (main_arg8 : FVec F S1024 .f32) (main_arg9 : FVec F S4x1024x1024 .f32) (main_arg10 : FVec F S4x1024 .f32) (main_arg11 : FVec F S4x1024x1024 .f32) (main_arg12 : FVec F S4x1024 .f32) (main_arg13 : FVec F S1024x4096 .f32) (main_arg14 : FVec F S1024 .f32) (main_arg15 : FVec F S1024 .f32) (main_arg16 : FVec F S1024 .f32) (main_arg17 : FVec F S10x1024 .f32) (main_arg18 : FVec F S10 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4096 : Shape := ⟨2, ![1024, 4096]⟩
abbrev S1024 : Shape := ⟨1, ![1024]⟩
abbrev S10x1024 : Shape := ⟨2, ![10, 1024]⟩
abbrev S10 : Shape := ⟨1, ![10]⟩
abbrev S4096x1024 : Shape := ⟨2, ![4096, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S_ : Shape := ⟨0, ![]⟩
abbrev S128x1024 : Shape := ⟨2, ![128, 1024]⟩
abbrev S1 : Shape := ⟨1, ![1]⟩
abbrev S1024x128 : Shape := ⟨2, ![1024, 128]⟩
abbrev S128 : Shape := ⟨1, ![128]⟩
abbrev S1x128 : Shape := ⟨2, ![1, 128]⟩
abbrev S16384x128 : Shape := ⟨2, ![16384, 128]⟩
abbrev S256x128 : Shape := ⟨2, ![256, 128]⟩
abbrev S16384x10 : Shape := ⟨2, ![16384, 10]⟩

abbrev nBuf : Space → Nat
  | .hbm => 61
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S4x1024x1024, .f32⟩
  | .hbm, ⟨4, _⟩ => ⟨S4x1024, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x1024x1024, .f32⟩
  | .hbm, ⟨10, _⟩ => ⟨S4x1024, .f32⟩
  | .hbm, ⟨11, _⟩ => ⟨S4x1024x1024, .f32⟩
  | .hbm, ⟨12, _⟩ => ⟨S4x1024, .f32⟩
  | .hbm, ⟨13, _⟩ => ⟨S1024x4096, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S10x1024, .f32⟩
  | .hbm, ⟨18, _⟩ => ⟨S10, .f32⟩
  | .hbm, ⟨19, _⟩ => ⟨S4096x1024, .f32⟩
  | .hbm, ⟨20, _⟩ => ⟨S1024x4096, .f32⟩
  | .hbm, ⟨21, _⟩ => ⟨S1024x4096, .bf16⟩
  | .hbm, ⟨22, _⟩ => ⟨S4096x1024, .f32⟩
  | .hbm, ⟨23, _⟩ => ⟨S1024x4096, .f32⟩
  | .hbm, ⟨24, _⟩ => ⟨S1024x4096, .bf16⟩
  | .hbm, ⟨25, _⟩ => ⟨S4096x1024, .f32⟩
  | .hbm, ⟨26, _⟩ => ⟨S4096x1024, .bf16⟩
  | .hbm, ⟨27, _⟩ => ⟨S1x4096, .f32⟩
  | .hbm, ⟨28, _⟩ => ⟨S1x4096, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S_, .f32⟩
  | .hbm, ⟨34, _⟩ => ⟨S128x1024, .f32⟩
  | .hbm, ⟨35, _⟩ => ⟨S_, .i32⟩
  | .hbm, ⟨36, _⟩ => ⟨S1, .i32⟩
  | .hbm, ⟨37, _⟩ => ⟨S128x1024, .f32⟩
  | .hbm, ⟨38, _⟩ => ⟨S1024x128, .f32⟩
  | .hbm, ⟨39, _⟩ => ⟨S1024x128, .bf16⟩
  | .hbm, ⟨40, _⟩ => ⟨S_, .f32⟩
  | .hbm, ⟨41, _⟩ => ⟨S128, .f32⟩
  | .hbm, ⟨42, _⟩ => ⟨S_, .i32⟩
  | .hbm, ⟨43, _⟩ => ⟨S1, .i32⟩
  | .hbm, ⟨44, _⟩ => ⟨S128, .f32⟩
  | .hbm, ⟨45, _⟩ => ⟨S1x128, .f32⟩
  | .hbm, ⟨46, _⟩ => ⟨S4096x1024, .f32⟩
  | .hbm, ⟨47, _⟩ => ⟨S1024x4096, .f32⟩
  | .hbm, ⟨48, _⟩ => ⟨S1024x4096, .bf16⟩
  | .hbm, ⟨49, _⟩ => ⟨S4096x1024, .f32⟩
  | .hbm, ⟨50, _⟩ => ⟨S1024x4096, .f32⟩
  | .hbm, ⟨51, _⟩ => ⟨S1024x4096, .bf16⟩
  | .hbm, ⟨52, _⟩ => ⟨S4096x1024, .f32⟩
  | .hbm, ⟨53, _⟩ => ⟨S4096x1024, .bf16⟩
  | .hbm, ⟨54, _⟩ => ⟨S1x4096, .f32⟩
  | .hbm, ⟨55, _⟩ => ⟨S1x4096, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S16384x128, .f32⟩
  | .hbm, ⟨60, _⟩ => ⟨S16384x10, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x4096, .bf16⟩
  | .local _ .vmem, ⟨15, _⟩ => ⟨S1x4096, .f32⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x128, .bf16⟩
  | .local _ .vmem, ⟨23, _⟩ => ⟨S1x128, .f32⟩
  | .local _ .vmem, ⟨24, _⟩ => ⟨S256x128, .f32⟩
  | .local _ .vmem, ⟨25, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S4x1024x1024_S4096x1024 : S4x1024x1024.ShapeCasts S4096x1024
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S4x1024_S1x4096 : S4x1024.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  bcast_S_S128x1024 : S_.BroadcastsInDim S128x1024 (![] : Fin 0 → Fin S128x1024.rank)
  bcast_S_S1 : S_.BroadcastsInDim S1 (![] : Fin 0 → Fin S1.rank)
  transposes_S128x1024_S1024x128_1_0 : S128x1024.Transposes [1, 0] S1024x128
  bcast_S_S128 : S_.BroadcastsInDim S128 (![] : Fin 0 → Fin S128.rank)
  shapeCasts_S128_S1x128 : S128.ShapeCasts S1x128
  shapeCasts_S256x1024_S256x1024 : S256x1024.ShapeCasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S16384x128_S16384x10_0_0 : S16384x128.Slices ![0, 0] S16384x10
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  scatter_S128x1024_S1_S10x1024_01_n_0_0_wf : ScatterDims.WF S128x1024 S1 S10x1024 [0, 1] [] [0] 0
  scatter_S128_S1_S10_0_n_0_0_wf : ScatterDims.WF S128 S1 S10 [0] [] [0] 0
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S16384x1024.size a
  hwx1_0 : ∀ i : grid1.Coords, EltTy.bits .f32 = 32 ∨ (Rect.block (s := S16384x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x1024.size a ≤ S4096x1024.size a
  hwx1_5 : ∀ i : grid1.Coords, EltTy.bits .bf16 = 32 ∨ (Rect.block (s := S4096x1024) S4096x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S1024x128.size a
  hwx1_9 : ∀ i : grid1.Coords, EltTy.bits .bf16 = 32 ∨ (Rect.block (s := S1024x128) S1024x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x128.size a ≤ S16384x128.size a
  hwx1_11 : ∀ i : grid1.Coords, EltTy.bits .f32 = 32 ∨ (Rect.block (s := S16384x128) S256x128.size (cc1_transform_11 i) (hinb1_11 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def scatter_S128x1024_S1_S10x1024_01_n_0_0 : ScatterDims S128x1024 S1 S10x1024 where
  updateWindowDims := [0, 1]
  insertedWindowDims := []
  scatterDimsToOperandDims := [0]
  indexVectorDim := 0
  wf := scatter_S128x1024_S1_S10x1024_01_n_0_0_wf
def scatter_S128_S1_S10_0_n_0_0 : ScatterDims S128 S1 S10 where
  updateWindowDims := [0]
  insertedWindowDims := []
  scatterDimsToOperandDims := [0]
  indexVectorDim := 0
  wf := scatter_S128_S1_S10_0_n_0_0_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S4096x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S1024x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v36) S256x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S1024x4096 : Shape := ⟨2, ![1024, 4096]⟩
abbrev S1024 : Shape := ⟨1, ![1024]⟩
abbrev S10x1024 : Shape := ⟨2, ![10, 1024]⟩
abbrev S10 : Shape := ⟨1, ![10]⟩
abbrev S16384x4x1024 : Shape := ⟨3, ![16384, 4, 1024]⟩
abbrev S1x4x1024 : Shape := ⟨3, ![1, 4, 1024]⟩
abbrev S16384x4096 : Shape := ⟨2, ![16384, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x10 : Shape := ⟨2, ![1024, 10]⟩
abbrev S16384x10 : Shape := ⟨2, ![16384, 10]⟩
abbrev S1x10 : Shape := ⟨2, ![1, 10]⟩

abbrev nBuf : Space → Nat
  | .hbm => 114
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024, .f32⟩
  | .hbm, ⟨3, _⟩ => ⟨S4x1024x1024, .f32⟩
  | .hbm, ⟨4, _⟩ => ⟨S4x1024, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4x1024x1024, .f32⟩
  | .hbm, ⟨10, _⟩ => ⟨S4x1024, .f32⟩
  | .hbm, ⟨11, _⟩ => ⟨S4x1024x1024, .f32⟩
  | .hbm, ⟨12, _⟩ => ⟨S4x1024, .f32⟩
  | .hbm, ⟨13, _⟩ => ⟨S1024x4096, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S10x1024, .f32⟩
  | .hbm, ⟨18, _⟩ => ⟨S10, .f32⟩
  | .hbm, ⟨19, _⟩ => ⟨S16384x4x1024, .f32⟩
  | .hbm, ⟨20, _⟩ => ⟨S1x4x1024, .f32⟩
  | .hbm, ⟨21, _⟩ => ⟨S16384x4x1024, .f32⟩
  | .hbm, ⟨22, _⟩ => ⟨S16384x4x1024, .f32⟩
  | .hbm, ⟨23, _⟩ => ⟨S16384x4x1024, .f32⟩
  | .hbm, ⟨24, _⟩ => ⟨S1x4x1024, .f32⟩
  | .hbm, ⟨25, _⟩ => ⟨S16384x4x1024, .f32⟩
  | .hbm, ⟨26, _⟩ => ⟨S16384x4x1024, .f32⟩
  | .hbm, ⟨27, _⟩ => ⟨S16384x4x1024, .f32⟩
  | .hbm, ⟨28, _⟩ => ⟨S16384x4096, .f32⟩
  | .hbm, ⟨29, _⟩ => ⟨S4096x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x4x1024, .f32⟩
  | .hbm, ⟨65, _⟩ => ⟨S1x4x1024, .f32⟩
  | .hbm, ⟨66, _⟩ => ⟨S16384x4x1024, .f32⟩
  | .hbm, ⟨67, _⟩ => ⟨S16384x4x1024, .f32⟩
  | .hbm, ⟨68, _⟩ => ⟨S16384x4x1024, .f32⟩
  | .hbm, ⟨69, _⟩ => ⟨S1x4x1024, .f32⟩
  | .hbm, ⟨70, _⟩ => ⟨S16384x4x1024, .f32⟩
  | .hbm, ⟨71, _⟩ => ⟨S16384x4x1024, .f32⟩
  | .hbm, ⟨72, _⟩ => ⟨S16384x4x1024, .f32⟩
  | .hbm, ⟨73, _⟩ => ⟨S16384x4096, .f32⟩
  | .hbm, ⟨74, _⟩ => ⟨S4096x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1, .f32⟩
  | .hbm, ⟨101, _⟩ => ⟨S16384x1024, .f32⟩
  | .hbm, ⟨102, _⟩ => ⟨S16384x1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S1x1024, .f32⟩
  | .hbm, ⟨107, _⟩ => ⟨S16384x1024, .f32⟩
  | .hbm, ⟨108, _⟩ => ⟨S16384x1024, .f32⟩
  | .hbm, ⟨109, _⟩ => ⟨S1024x10, .f32⟩
  | .hbm, ⟨110, _⟩ => ⟨S16384x10, .f32⟩
  | .hbm, ⟨111, _⟩ => ⟨S1x10, .f32⟩
  | .hbm, ⟨112, _⟩ => ⟨S16384x10, .f32⟩
  | .hbm, ⟨113, _⟩ => ⟨S16384x10, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_4 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_8 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  shapeCasts_S16384x4x1024_S16384x4096 : S16384x4x1024.ShapeCasts S16384x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  transposes_S10x1024_S1024x10_1_0 : S10x1024.Transposes [1, 0] S1024x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x1024_S4x1024x1024_S16384x4x1024_1_2_0_01_n_n_wf : DotDims.WF S16384x1024 S4x1024x1024 S16384x4x1024 [1] [2] [0] [0, 1] [] []
  dot_S16384x4096_S4096x1024_S16384x1024_1_0_0_1_n_n_wf : DotDims.WF S16384x4096 S4096x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.KernelRun.lean ====
/-
  The idealized kernel's run, with every unscoped buffer named.

  The program is three stretches of host operations around two kernel regions.  Folding the launch memory through
  the five segments gives, on each core, one valuation of the buffers at the return (`Gen.W5`): the host stretches
  apply their operations, a region replaces each of its arrays by what its write-backs leave.  Every weakly fair
  execution terminates without a fault, and in every final state each unscoped buffer holds exactly that valuation.
  The frame claim keeps only the argument buffers of this reading; the value claim also needs the result buffer,
  so the reading is stated here for all of them at once.
-/
import proofs.«127397_j26225070309871_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, and every unscoped buffer
    of every core ends at the fold of the launch memory through the five segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Named

end
-- ==== Proof.Spec.lean ====
/-
  The mathematics of one bilinear layer with layer normalisation, and of the linear read-out, row by row, on the
  extended reals.

  A row `x` of 1024 entries is projected twice onto 4096 basis directions (`proj`: a matrix product plus a bias);
  the two projections are multiplied entry by entry, mapped back to 1024 entries by a third matrix product plus a
  bias, and added to the row (`residual`).  The result is normalised: its mean is subtracted, it is scaled by the
  reciprocal square root of its variance plus a small constant, then by a gain, and a shift is added
  (`normalize`).  The read-out is one more matrix product plus a bias.  Every row of the output depends on the
  same row of the input only.
-/
import Idealize.ShloMosaic.PureOps.Ideal
import Idealize.ShloMosaic.PureOps.Ideal.Laws
import Idealize.ShloMosaic.Lib.ValueIdx

noncomputable section

namespace Cert.BilinearNorm

open Idealize.ShloMosaic

/-- The row length 1024 as the programs write it: the f32 word of 1024.0. -/
abbrev rowLen : EReal := Ideal.ofBits .f32 0x44800000#32
/-- The small constant added to the variance: the f32 word both programs carry. -/
abbrev varEps : EReal := Ideal.ofBits .f32 0x3727C5AC#32

/-- A flat basis index `k` below 4096 names head `k / 1024` … -/
def headOf (k : Fin 4096) : Fin 4 := ⟨k.val / 1024, by have := k.isLt; omega⟩
/-- … and direction `k % 1024` within the head: the row-major order of a `[4, 1024]` pair. -/
def dirOf (k : Fin 4096) : Fin 1024 := ⟨k.val % 1024, Nat.mod_lt _ (by decide)⟩

/-- A projection onto 4096 directions: `∑ d, x d · w d k`, plus a bias. -/
def proj (x : Fin 1024 → EReal) (w : Fin 1024 → Fin 4096 → EReal) (b : Fin 4096 → EReal) (k : Fin 4096) : EReal :=
  (∑ d : Fin 1024, x d * w d k) + b k

/-- The row plus the bilinear term: the product of the two projections, mapped back to 1024 entries. -/
def residual (x : Fin 1024 → EReal) (wr : Fin 1024 → Fin 4096 → EReal) (br : Fin 4096 → EReal)
    (wl : Fin 1024 → Fin 4096 → EReal) (bl : Fin 4096 → EReal) (we : Fin 4096 → Fin 1024 → EReal)
    (be : Fin 1024 → EReal) (q : Fin 1024) : EReal :=
  x q + ((∑ k : Fin 4096, (proj x wr br k * proj x wl bl k) * we k q) + be q)

/-- A row's mean: its sum divided by 1024. -/
def mean (h : Fin 1024 → EReal) : EReal := Ideal.div (∑ q : Fin 1024, h q) rowLen

/-- A row's variance: the mean of the squared deviations from its mean. -/
def variance (h : Fin 1024 → EReal) : EReal :=
  Ideal.div (∑ q : Fin 1024, (h q - mean h) * (h q - mean h)) rowLen

/-- Layer normalisation of a row, with gain `g` and shift `b`. -/
def normalize (h : Fin 1024 → EReal) (g b : Fin 1024 → EReal) (q : Fin 1024) : EReal :=
  (h q - mean h) * Ideal.rsqrt (variance h + varEps) * g q + b q

/-- One layer: the residual bilinear term, normalised. -/
def layer (x : Fin 1024 → EReal) (wr : Fin 1024 → Fin 4096 → EReal) (br : Fin 4096 → EReal)
    (wl : Fin 1024 → Fin 4096 → EReal) (bl : Fin 4096 → EReal) (we : Fin 4096 → Fin 1024 → EReal)
    (be g b : Fin 1024 → EReal) : Fin 1024 → EReal :=
  normalize (residual x wr br wl bl we be) g b

/-- The linear read-out of a row onto `n` outputs. -/
def readout {n : Nat} (h : Fin 1024 → EReal) (wf : Fin 1024 → Fin n → EReal) (bf : Fin n → EReal) (o : Fin n) : EReal :=
  (∑ d : Fin 1024, h d * wf d o) + bf o

end Cert.BilinearNorm

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelRows.lean ====
/-
  The two kernel bodies, entry by entry, at the exact values.

  A grid point loads a block of 256 rows and the whole weight arrays, and stores a block of 256 rows.  Read on the
  extended reals every operation of the body is the textbook one: the three matrix products are sums over the
  contracted axis, the row reductions are sums along the row, the reshapes of a row of biases to itself are the
  identity, a one-row array broadcast over the block reads its one row, a column broadcast along the rows reads
  the row's entry.  So entry `(p, q)` of what the first body stores is the layer of `Spec.lean` applied to row `p`
  of the loaded block, at `q`; and entry `(p, o)` of what the second body stores is the read-out, at `o`, of the
  layer applied to row `p`.  Rounding to the narrower float format, which the bodies apply before each product, is
  the identity at the exact values.
-/
import proofs.«127397_j26225070309871_2_alg».proof.Proof.Gen.KernelIdeal.Skeleton
import proofs.«127397_j26225070309871_2_alg».proof.Proof.Spec
import proofs.«127397_j26225070309871_2_alg».proof.Proof.LibDotSum
import proofs.«127397_j26225070309871_2_alg».proof.Proof.LibColumnCast
import proofs.«127397_j26225070309871_2_alg».proof.Proof.LibColumnBroadcast
import Idealize.ShloMosaic.Lib.Pipeline.Value
import Idealize.ShloMosaic.Lib.ValueLayout

noncomputable section
namespace Cert.KernelIdeal.Rows
open Cert.KernelIdeal Cert.KernelIdeal.Gen Idealize.ShloMosaic Idealize.ShloMosaic.ValueIdx Cert.Lib

/-! ## The three matrix products of a 256-row block, read at an entry -/

theorem matmul_in_apply (a : FVec Ideal S256x1024 .bf16) (w : FVec Ideal S1024x4096 .bf16) (p : Fin 256) (k : Fin 4096) :
    matmul dot_S256x1024_S1024x4096_S256x4096_1_0_0_1_n_n none a w (constant S256x4096 .f32 0x00000000#32) (ix2 p k)
      = ∑ d : Fin 1024, a (ix2 p d) * w (ix2 d k) := by
  refine (Ideal.matmul_constant_zero_apply _ none a w (ix2 p k)).trans ?_
  refine Cert.LibDotSum.sum_contr_eq dot_S256x1024_S1024x4096_S256x4096_1_0_0_1_n_n 1024 rfl rfl a w (ix2 p k) _ _
    (fun i => congrArg a ?_) (fun i => congrArg w ?_)
  · funext ax; apply Fin.ext
    match ax with
    | ⟨0, _⟩ => rfl
    | ⟨1, _⟩ => exact (DotDims.lhsIdx_val_of_single _ rfl _ _).trans (contrEquiv1_symm_val _ 1024 rfl rfl i)
  · funext ax; apply Fin.ext
    match ax with
    | ⟨0, _⟩ => exact (DotDims.rhsIdx_val_of_single _ rfl _ _).trans (contrEquiv1_symm_val _ 1024 rfl rfl i)
    | ⟨1, _⟩ => rfl

theorem matmul_back_apply (a : FVec Ideal S256x4096 .bf16) (w : FVec Ideal S4096x1024 .bf16) (p : Fin 256) (k : Fin 1024) :
    matmul dot_S256x4096_S4096x1024_S256x1024_1_0_0_1_n_n none a w (constant S256x1024 .f32 0x00000000#32) (ix2 p k)
      = ∑ d : Fin 4096, a (ix2 p d) * w (ix2 d k) := by
  refine (Ideal.matmul_constant_zero_apply _ none a w (ix2 p k)).trans ?_
  refine Cert.LibDotSum.sum_contr_eq dot_S256x4096_S4096x1024_S256x1024_1_0_0_1_n_n 4096 rfl rfl a w (ix2 p k) _ _
    (fun i => congrArg a ?_) (fun i => congrArg w ?_)
  · funext ax; apply Fin.ext
    match ax with
    | ⟨0, _⟩ => rfl
    | ⟨1, _⟩ => exact (DotDims.lhsIdx_val_of_single _ rfl _ _).trans (contrEquiv1_symm_val _ 4096 rfl rfl i)
  · funext ax; apply Fin.ext
    match ax with
    | ⟨0, _⟩ => exact (DotDims.rhsIdx_val_of_single _ rfl _ _).trans (contrEquiv1_symm_val _ 4096 rfl rfl i)
    | ⟨1, _⟩ => rfl

theorem matmul_out_apply (a : FVec Ideal S256x1024 .bf16) (w : FVec Ideal S1024x128 .bf16) (p : Fin 256) (k : Fin 128) :
    matmul dot_S256x1024_S1024x128_S256x128_1_0_0_1_n_n none a w (constant S256x128 .f32 0x00000000#32) (ix2 p k)
      = ∑ d : Fin 1024, a (ix2 p d) * w (ix2 d k) := by
  refine (Ideal.matmul_constant_zero_apply _ none a w (ix2 p k)).trans ?_
  refine Cert.LibDotSum.sum_contr_eq dot_S256x1024_S1024x128_S256x128_1_0_0_1_n_n 1024 rfl rfl a w (ix2 p k) _ _
    (fun i => congrArg a ?_) (fun i => congrArg w ?_)
  · funext ax; apply Fin.ext
    match ax with
    | ⟨0, _⟩ => rfl
    | ⟨1, _⟩ => exact (DotDims.lhsIdx_val_of_single _ rfl _ _).trans (contrEquiv1_symm_val _ 1024 rfl rfl i)
  · funext ax; apply Fin.ext
    match ax with
    | ⟨0, _⟩ => exact (DotDims.rhsIdx_val_of_single _ rfl _ _).trans (contrEquiv1_symm_val _ 1024 rfl rfl i)
    | ⟨1, _⟩ => rfl

/-! ## A row sum, a column, a row of biases -/

/-- The sum along the rows of a block, at row `p`, is `∑ q, v (p, q)`. -/
theorem rowsum_apply (v : FVec Ideal S256x1024 .f32) (h : S256x1024.Reduces [1] S256) (hφ : FKind.Formats .f32)
    (hacc : (0x00000000#32 : BitVec 32) = FKind.add.neutral .f32 hφ) (p : Fin 256) :
    multiReduction .add [1] S256 v 0x00000000#32 h hφ hacc (ix1 p)
      = ∑ q : Fin 1024, v (ix2 p q) := by
  refine (Ideal.multiReduction_add_single v _ h hφ hacc (ix1 p)).trans ?_
  refine Finset.sum_congr rfl fun q _ => congrArg v ?_
  funext ax; apply Fin.ext
  match ax with
  | ⟨0, _⟩ => rfl
  | ⟨1, _⟩ => rfl

/-- The 256 row sums, reshaped to a column and divided entry by entry by a scalar `c`. -/
theorem mean_col_apply (v : FVec Ideal S256x1024 .f32) (h : S256x1024.Reduces [1] S256) (hφ : FKind.Formats .f32)
    (hacc : (0x00000000#32 : BitVec 32) = FKind.add.neutral .f32 hφ) (hc : S256.ShapeCasts S256x1) (c : Ideal .f32)
    (p : Fin 256) (u : Fin 1) :
    divf (shapeCast S256x1 (multiReduction .add [1] S256 v 0x00000000#32 h hφ hacc) hc) (broadcast S256x1 c) (ix2 p u)
      = Ideal.div (∑ q : Fin 1024, v (ix2 p q)) c := by
  show Ideal.div (shapeCast S256x1 (multiReduction .add [1] S256 v 0x00000000#32 h hφ hacc) hc (ix2 p u)) _ = _
  rw [shapeCast_a_a1_apply, rowsum_apply]
  rfl

/-- A one-row array broadcast over the block's rows, after the identity reshape the body applies to it. -/
theorem bias_apply {n : Nat} (b : Vec Ideal ⟨2, ![1, n]⟩ .f32) (h1 : (⟨2, ![1, n]⟩ : Shape).ShapeCasts ⟨2, ![1, n]⟩)
    (h2 : (⟨2, ![1, n]⟩ : Shape).Broadcasts ⟨2, ![256, n]⟩) (p : Fin 256) (k : Fin n) :
    broadcastTo ⟨2, ![256, n]⟩ (shapeCast ⟨2, ![1, n]⟩ b h1) h2 (ix2 p k) = b (ix2 (0 : Fin 1) k) := by
  rw [shapeCast_self]
  exact broadcastTo_1b_ab_apply b h2 p k

/-! ## The body's payloads at an entry -/

variable (v0 : Vec Ideal S256x1024 .f32) (v2 : Vec Ideal S1024x4096 .bf16) (v5 : Vec Ideal S1x4096 .f32)
  (v9 : Vec Ideal S1024x4096 .bf16) (v12 : Vec Ideal S1x4096 .f32) (v18 : Vec Ideal S4096x1024 .bf16)
  (v21 : Vec Ideal S1x1024 .f32)

/-- Row `p` of the block, updated: the row plus its bilinear term, as a function of the loaded blocks. -/
abbrev updated (p : Fin 256) : Fin 1024 → EReal :=
  BilinearNorm.residual (fun d => v0 (ix2 p d)) (fun d k => v2 (ix2 d k)) (fun k => v5 (ix2 (0 : Fin 1) k))
    (fun d k => v9 (ix2 d k)) (fun k => v12 (ix2 (0 : Fin 1) k)) (fun k q => v18 (ix2 k q))
    (fun q => v21 (ix2 (0 : Fin 1) q))

/-- The row plus its bilinear term. -/
theorem pay2_apply (p : Fin 256) (q : Fin 1024) :
    k0_pay2 (F := Ideal) v0 v2 v5 v9 v12 v18 v21 (ix2 p q) = updated v0 v2 v5 v9 v12 v18 v21 p q := by
  unfold k0_pay2 updated BilinearNorm.residual BilinearNorm.proj
  simp only [addf_apply, mulf_apply, truncf_apply, shapeCast_self, matmul_in_apply, matmul_back_apply,
    broadcastTo_1b_ab_apply]

/-- The column of row means. -/
theorem pay3_apply (p : Fin 256) (u : Fin 1) :
    k0_pay3 (F := Ideal) v0 v2 v5 v9 v12 v18 v21 (ix2 p u) = BilinearNorm.mean (updated v0 v2 v5 v9 v12 v18 v21 p) := by
  unfold k0_pay3 BilinearNorm.mean
  refine (mean_col_apply _ _ _ _ _ _ p u).trans ?_
  simp only [pay2_apply]
  rfl

/-- The column of row variances. -/
theorem pay4_apply (p : Fin 256) (u : Fin 1) :
    k0_pay4 (F := Ideal) v0 v2 v5 v9 v12 v18 v21 (ix2 p u) = BilinearNorm.variance (updated v0 v2 v5 v9 v12 v18 v21 p) := by
  unfold k0_pay4 BilinearNorm.variance
  refine (mean_col_apply _ _ _ _ _ _ p u).trans ?_
  simp only [mulf_apply, subf_apply, broadcastTo_a1_ab_apply, pay3_apply, pay2_apply]
  rfl

/-- The row means, broadcast along the rows. -/
theorem pay5_apply (p : Fin 256) (q : Fin 1024) :
    k0_pay5 (F := Ideal) v0 v2 v5 v9 v12 v18 v21 (ix2 p q) = BilinearNorm.mean (updated v0 v2 v5 v9 v12 v18 v21 p) := by
  unfold k0_pay5
  simp only [broadcastTo_a1_ab_apply, pay3_apply]

/-- The normalisation, over any updated block `h`, variance column `var` and broadcast means `mu`. -/
theorem pay1_apply (h : FVec Ideal S256x1024 .f32) (var : FVec Ideal S256x1 .f32) (mu : FVec Ideal S256x1024 .f32)
    (g b : Vec Ideal S1x1024 .f32) (p : Fin 256) (q : Fin 1024) :
    k0_pay1 (F := Ideal) h var mu g b (ix2 p q)
      = (h (ix2 p q) - mu (ix2 p q)) * Ideal.rsqrt (var (ix2 p (0 : Fin 1)) + BilinearNorm.varEps) * g (ix2 (0 : Fin 1) q)
          + b (ix2 (0 : Fin 1) q) := by
  unfold k0_pay1
  simp only [addf_apply, mulf_apply, subf_apply, shapeCast_self, broadcastTo_1b_ab_apply, broadcastTo_a1_ab_apply]
  rfl

/-- THE FIRST KERNEL'S BLOCK: entry `(p, q)` of what the body stores is the layer applied to row `p` of the
    loaded block, at `q`. -/
theorem layer_block_apply (g b : Vec Ideal S1x1024 .f32) (p : Fin 256) (q : Fin 1024) :
    k0_pay1 (F := Ideal) (k0_pay2 v0 v2 v5 v9 v12 v18 v21) (k0_pay4 v0 v2 v5 v9 v12 v18 v21) (k0_pay5 v0 v2 v5 v9 v12 v18 v21) g b (ix2 p q)
      = BilinearNorm.layer (fun d => v0 (ix2 p d)) (fun d k => v2 (ix2 d k)) (fun k => v5 (ix2 (0 : Fin 1) k))
          (fun d k => v9 (ix2 d k)) (fun k => v12 (ix2 (0 : Fin 1) k)) (fun k q => v18 (ix2 k q))
          (fun q => v21 (ix2 (0 : Fin 1) q)) (fun q => g (ix2 (0 : Fin 1) q)) (fun q => b (ix2 (0 : Fin 1) q)) q := by
  rw [pay1_apply, pay2_apply, pay4_apply, pay5_apply]
  rfl

/-! ## The second kernel: the same payloads, then the read-out -/

/-- The row plus its bilinear term. -/
theorem pay2_apply' (p : Fin 256) (q : Fin 1024) :
    k1_pay2 (F := Ideal) v0 v2 v5 v9 v12 v18 v21 (ix2 p q) = updated v0 v2 v5 v9 v12 v18 v21 p q := by
  unfold k1_pay2 updated BilinearNorm.residual BilinearNorm.proj
  simp only [addf_apply, mulf_apply, truncf_apply, shapeCast_self, matmul_in_apply, matmul_back_apply,
    broadcastTo_1b_ab_apply]

/-- The column of row means. -/
theorem pay3_apply' (p : Fin 256) (u : Fin 1) :
    k1_pay3 (F := Ideal) v0 v2 v5 v9 v12 v18 v21 (ix2 p u) = BilinearNorm.mean (updated v0 v2 v5 v9 v12 v18 v21 p) := by
  unfold k1_pay3 BilinearNorm.mean
  refine (mean_col_apply _ _ _ _ _ _ p u).trans ?_
  simp only [pay2_apply']
  rfl

/-- The column of row variances. -/
theorem pay4_apply' (p : Fin 256) (u : Fin 1) :
    k1_pay4 (F := Ideal) v0 v2 v5 v9 v12 v18 v21 (ix2 p u) = BilinearNorm.variance (updated v0 v2 v5 v9 v12 v18 v21 p) := by
  unfold k1_pay4 BilinearNorm.variance
  refine (mean_col_apply _ _ _ _ _ _ p u).trans ?_
  simp only [mulf_apply, subf_apply, broadcastTo_a1_ab_apply, pay3_apply', pay2_apply']
  rfl

/-- The second kernel's last payload: normalise, then read out onto 128 columns. -/
theorem k1_pay1_apply (h : FVec Ideal S256x1024 .f32) (mu var : FVec Ideal S256x1 .f32)
    (g b : Vec Ideal S1x1024 .f32) (wf : Vec Ideal S1024x128 .bf16) (bf : Vec Ideal S1x128 .f32) (p : Fin 256) (o : Fin 128) :
    k1_pay1 (F := Ideal) h mu var g b wf bf (ix2 p o)
      = BilinearNorm.readout (fun d => (h (ix2 p d) - mu (ix2 p (0 : Fin 1))) * Ideal.rsqrt (var (ix2 p (0 : Fin 1)) + BilinearNorm.varEps)
            * g (ix2 (0 : Fin 1) d) + b (ix2 (0 : Fin 1) d)) (fun d o => wf (ix2 d o)) (fun o => bf (ix2 (0 : Fin 1) o)) o := by
  unfold k1_pay1 BilinearNorm.readout
  simp only [addf_apply, mulf_apply, subf_apply, truncf_apply, shapeCast_self, matmul_out_apply, broadcastTo_1b_ab_apply,
    broadcastTo_a1_ab_apply]
  rfl

/-- THE SECOND KERNEL'S BLOCK: entry `(p, o)` of what the body stores is the read-out of the layer applied to
    row `p` of the loaded block. -/
theorem head_block_apply (g b : Vec Ideal S1x1024 .f32) (wf : Vec Ideal S1024x128 .bf16) (bf : Vec Ideal S1x128 .f32)
    (p : Fin 256) (o : Fin 128) :
    k1_pay1 (F := Ideal) (k1_pay2 v0 v2 v5 v9 v12 v18 v21) (k1_pay3 v0 v2 v5 v9 v12 v18 v21) (k1_pay4 v0 v2 v5 v9 v12 v18 v21) g b wf bf (ix2 p o)
      = BilinearNorm.readout (BilinearNorm.layer (fun d => v0 (ix2 p d)) (fun d k => v2 (ix2 d k)) (fun k => v5 (ix2 (0 : Fin 1) k))
          (fun d k => v9 (ix2 d k)) (fun k => v12 (ix2 (0 : Fin 1) k)) (fun k q => v18 (ix2 k q))
          (fun q => v21 (ix2 (0 : Fin 1) q)) (fun q => g (ix2 (0 : Fin 1) q)) (fun q => b (ix2 (0 : Fin 1) q)))
          (fun d o => wf (ix2 d o)) (fun o => bf (ix2 (0 : Fin 1) o)) o := by
  rw [k1_pay1_apply]
  simp only [pay2_apply', pay3_apply', pay4_apply']
  rfl

end Cert.KernelIdeal.Rows
end
-- ==== Proof.KernelArrays.lean ====
/-
  From blocks to arrays: what each kernel region leaves in its output array.

  A region runs its body at 64 grid points.  Point `t` reads rows `256 t … 256 t + 255` of the input array and the
  whole of every weight array, and writes rows `256 t … 256 t + 255` of the output array.  Since a row of the
  body's result depends on the same row of the input only, what point `t` writes back is block `t` of ONE
  function of the whole arrays: `layerOf` for the first region, `headOf` for the second.  The 64 blocks tile the
  output array, so after the region it holds that function everywhere.  Both statements are at a parameter `V`,
  the buffers' contents when the region is entered.
-/
import proofs.«127397_j26225070309871_2_alg».proof.Proof.Gen.KernelIdeal.Frame
import proofs.«127397_j26225070309871_2_alg».proof.Proof.KernelRows
import Idealize.ShloMosaic.Lib.Pipeline.Value

set_option maxRecDepth 16384

noncomputable section
namespace Cert.KernelIdeal.Arrays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The whole-array layer: row `i 0` of `X` through the layer, at `i 1`; the weights in the kernel's layouts. -/
def layerOf (X : S16384x1024.Idx → EReal) (wr : S1024x4096.Idx → EReal) (br : S1x4096.Idx → EReal)
    (wl : S1024x4096.Idx → EReal) (bl : S1x4096.Idx → EReal) (we : S4096x1024.Idx → EReal)
    (be g b : S1x1024.Idx → EReal) : S16384x1024.Idx → EReal := fun i =>
  BilinearNorm.layer (fun d => X (ix2 (i 0) d)) (fun d k => wr (ix2 d k)) (fun k => br (ix2 (0 : Fin 1) k))
    (fun d k => wl (ix2 d k)) (fun k => bl (ix2 (0 : Fin 1) k)) (fun k q => we (ix2 k q))
    (fun q => be (ix2 (0 : Fin 1) q)) (fun q => g (ix2 (0 : Fin 1) q)) (fun q => b (ix2 (0 : Fin 1) q)) (i 1)

/-- The whole-array layer followed by the read-out onto 128 columns. -/
def headOf (X : S16384x1024.Idx → EReal) (wr : S1024x4096.Idx → EReal) (br : S1x4096.Idx → EReal)
    (wl : S1024x4096.Idx → EReal) (bl : S1x4096.Idx → EReal) (we : S4096x1024.Idx → EReal)
    (be g b : S1x1024.Idx → EReal) (wf : S1024x128.Idx → EReal) (bf : S1x128.Idx → EReal) : S16384x128.Idx → EReal := fun i =>
  BilinearNorm.readout (BilinearNorm.layer (fun d => X (ix2 (i 0) d)) (fun d k => wr (ix2 d k)) (fun k => br (ix2 (0 : Fin 1) k))
    (fun d k => wl (ix2 d k)) (fun k => bl (ix2 (0 : Fin 1) k)) (fun k q => we (ix2 k q))
    (fun q => be (ix2 (0 : Fin 1) q)) (fun q => g (ix2 (0 : Fin 1) q)) (fun q => b (ix2 (0 : Fin 1) q)))
    (fun d o => wf (ix2 d o)) (fun o => bf (ix2 (0 : Fin 1) o)) (i 1)

/-- Row `p` of the block at grid point `t` is row `256 t + p` of the array. -/
def rowOf {n : Nat} (hn : n = 64) (t : Fin n) (p : Fin 256) : Fin 16384 :=
  ⟨t.val * 256 + p.val, by have := t.isLt; have := p.isLt; omega⟩

/-! ## The first region -/

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

theorem blk0_0 (c : Dev nD) (t : Fin cfg0.N) (p : Fin 256) (d : Fin 1024) :
    iblk0 V c 0 t (ix2 p d) = V c main_arg0 (ix2 (rowOf N_0 t p) d) := by
  obtain ⟨e0, e1, e2, e3, e4, e5, e6, e7, e8, e9, e10, e11, e12, e13, e14, e15, e16, e17, e18, e19⟩ := idx_facts0 t
  refine congrArg (V c main_arg0) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * d.val = d.val; omega

theorem blk0_1 (c : Dev nD) (t : Fin cfg0.N) (y : S1024x4096.Idx) : iblk0 V c 1 t y = V c main_v2 y := by
  obtain ⟨e0, e1, e2, e3, e4, e5, e6, e7, e8, e9, e10, e11, e12, e13, e14, e15, e16, e17, e18, e19⟩ := idx_facts0 t
  refine congrArg (V c main_v2) (funext fun a => Fin.ext ?_)
  match a with
  | ⟨0, _⟩ => show win0_1.index t (0 : Fin 2) * 1024 + 1 * (y 0).val = (y 0).val; omega
  | ⟨1, _⟩ => show win0_1.index t (1 : Fin 2) * 4096 + 1 * (y 1).val = (y 1).val; omega

theorem blk0_2 (c : Dev nD) (t : Fin cfg0.N) (y : S1x4096.Idx) : iblk0 V c 2 t y = V c main_v8 y := by
  obtain ⟨e0, e1, e2, e3, e4, e5, e6, e7, e8, e9, e10, e11, e12, e13, e14, e15, e16, e17, e18, e19⟩ := idx_facts0 t
  refine congrArg (V c main_v8) (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

theorem blk0_3 (c : Dev nD) (t : Fin cfg0.N) (y : S1024x4096.Idx) : iblk0 V c 3 t y = V c main_v5 y := by
  obtain ⟨e0, e1, e2, e3, e4, e5, e6, e7, e8, e9, e10, e11, e12, e13, e14, e15, e16, e17, e18, e19⟩ := idx_facts0 t
  refine congrArg (V c main_v5) (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

theorem blk0_4 (c : Dev nD) (t : Fin cfg0.N) (y : S1x4096.Idx) : iblk0 V c 4 t y = V c main_v9 y := by
  obtain ⟨e0, e1, e2, e3, e4, e5, e6, e7, e8, e9, e10, e11, e12, e13, e14, e15, e16, e17, e18, e19⟩ := idx_facts0 t
  refine congrArg (V c main_v9) (funext fun a => Fin.ext ?_)
  match a with
  | ⟨0, _⟩ => show win0_4.index t (0 : Fin 2) * 1 + 1 * (y 0).val = (y 0).val; omega
  | ⟨1, _⟩ => show win0_4.index t (1 : Fin 2) * 4096 + 1 * (y 1).val = (y 1).val; omega

theorem blk0_5 (c : Dev nD) (t : Fin cfg0.N) (y : S4096x1024.Idx) : iblk0 V c 5 t y = V c main_v7 y := by
  obtain ⟨e0, e1, e2, e3, e4, e5, e6, e7, e8, e9, e10, e11, e12, e13, e14, e15, e16, e17, e18, e19⟩ := idx_facts0 t
  refine congrArg (V c main_v7) (funext fun a => Fin.ext ?_)
  match a with
  | ⟨0, _⟩ => show win0_5.index t (0 : Fin 2) * 4096 + 1 * (y 0).val = (y 0).val; omega
  | ⟨1, _⟩ => show win0_5.index t (1 : Fin 2) * 1024 + 1 * (y 1).val = (y 1).val; omega

theorem blk0_6 (c : Dev nD) (t : Fin cfg0.N) (y : S1x1024.Idx) : iblk0 V c 6 t y = V c main_v10 y := by
  obtain ⟨e0, e1, e2, e3, e4, e5, e6, e7, e8, e9, e10, e11, e12, e13, e14, e15, e16, e17, e18, e19⟩ := idx_facts0 t
  refine congrArg (V c main_v10) (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem blk0_7 (c : Dev nD) (t : Fin cfg0.N) (y : S1x1024.Idx) : iblk0 V c 7 t y = V c main_v11 y := by
  obtain ⟨e0, e1, e2, e3, e4, e5, e6, e7, e8, e9, e10, e11, e12, e13, e14, e15, e16, e17, e18, e19⟩ := idx_facts0 t
  refine congrArg (V c main_v11) (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

theorem blk0_8 (c : Dev nD) (t : Fin cfg0.N) (y : S1x1024.Idx) : iblk0 V c 8 t y = V c main_v12 y := by
  obtain ⟨e0, e1, e2, e3, e4, e5, e6, e7, e8, e9, e10, e11, e12, e13, e14, e15, e16, e17, e18, e19⟩ := idx_facts0 t
  refine congrArg (V c main_v12) (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

theorem emb0_9 (t : Fin cfg0.N) (p : Fin 256) (q : Fin 1024) :
    ((cfg0.win 9).blk t).view.emb (ix2 p q) = ix2 (rowOf N_0 t p) q := by
  obtain ⟨e0, e1, e2, e3, e4, e5, e6, e7, e8, e9, e10, e11, e12, e13, e14, e15, e16, e17, e18, e19⟩ := idx_facts0 t
  refine funext fun a => Fin.ext ?_
  match a with
  | ⟨0, _⟩ => show win0_9.index t (0 : Fin 2) * 256 + 1 * p.val = t.val * 256 + p.val; omega
  | ⟨1, _⟩ => show win0_9.index t (1 : Fin 2) * 1024 + 1 * q.val = q.val; omega

/-- What grid point `t` writes back is block `t` of the whole-array function of the region-entry arrays. -/
theorem flushed0_eq (c : Dev nD) (t : Fin cfg0.N) :
    (dat0 V c).flushed 9 t = ((cfg0.win 9).blk t).view.read (Elt Ideal)
      (layerOf (V c main_arg0) (V c main_v2) (V c main_v8) (V c main_v5) (V c main_v9) (V c main_v7) (V c main_v10) (V c main_v11) (V c main_v12)) := by
  show (cfg0.win 9).cut (grid0.coords t) ((dat0 V c).after 9 t) = _
  rw [after0_9]
  unfold out0_9
  rw [View.canon_unit_zero hz]
  simp only [View.ld_unit_zero (S := S256x1024) hz, View.ld_unit_zero (S := S1024x4096) hz, View.ld_unit_zero (S := S1x4096) hz, View.ld_unit_zero (S := S4096x1024) hz, View.ld_unit_zero (S := S1x1024) hz]
  funext j
  obtain ⟨p, q, rfl⟩ : ∃ (p : Fin 256) (q : Fin 1024), j = ix2 p q := ⟨j 0, j 1, eq_ix2 j⟩
  show k0_pay1 (F := Ideal) _ _ _ _ _ (ix2 p q) = layerOf _ _ _ _ _ _ _ _ _ (((cfg0.win 9).blk t).view.emb (ix2 p q))
  rw [Rows.layer_block_apply, emb0_9]
  unfold layerOf
  simp only [blk0_0, blk0_1, blk0_2, blk0_3, blk0_4, blk0_5, blk0_6, blk0_7, blk0_8]

theorem mem_blk0 (t : Fin cfg0.N) (i : S16384x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v13).slice (win0_9.rect t)).set ↔ _
  rw [View.set_slice_whole, Rect.mem_set_unit]
  exact Iff.rfl

/-- Every entry of the output array lies in the block of the grid point its row names. -/
theorem cover0 (i : S16384x1024.Idx) :
    ∃ t : Fin cfg0.N, (cfg0.win 9).flush t = true ∧ i ∈ ((cfg0.win 9).blk t).view.set := by
  have hN : grid0.N = 64 := N_0
  have hi0 : (i 0).val < 16384 := (i 0).isLt
  have hi1 : (i 1).val < 1024 := (i 1).isLt
  let t : Fin cfg0.N := ⟨(i 0).val / 256, by show (i 0).val / 256 < grid0.N; rw [hN]; omega⟩
  have ht : t.val = (i 0).val / 256 := rfl
  refine ⟨t, flush0_9 t, ?_⟩
  rw [mem_blk0]
  obtain ⟨e0, e1, e2, e3, e4, e5, e6, e7, e8, e9, e10, e11, e12, e13, e14, e15, e16, e17, e18, e19⟩ := idx_facts0 t
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-- The output array after the region: the whole-array function of the region-entry arrays. -/
theorem final0 (c : Dev nD) : (dat0 V c).arrAt 9 cfg0.N = layerOf (V c main_arg0) (V c main_v2) (V c main_v8) (V c main_v5) (V c main_v9) (V c main_v7) (V c main_v10) (V c main_v11) (V c main_v12) :=
  (dat0 V c).arrAt_eq_of_cover 9 _ (fun t _ => flushed0_eq V c t) cover0

/-! ## The second region -/

theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

theorem blk1_0 (c : Dev nD) (t : Fin cfg1.N) (p : Fin 256) (d : Fin 1024) :
    iblk1 V c 0 t (ix2 p d) = V c main_v13 (ix2 (rowOf N_1 t p) d) := by
  obtain ⟨e0, e1, e2, e3, e4, e5, e6, e7, e8, e9, e10, e11, e12, e13, e14, e15, e16, e17, e18, e19, e20, e21, e22, e23⟩ := idx_facts1 t
  refine congrArg (V c main_v13) (funext fun a => Fin.ext ?_)
  match a with
  | ⟨0, _⟩ => show win1_0.index t (0 : Fin 2) * 256 + 1 * p.val = t.val * 256 + p.val; omega
  | ⟨1, _⟩ => show win1_0.index t (1 : Fin 2) * 1024 + 1 * d.val = d.val; omega

theorem blk1_1 (c : Dev nD) (t : Fin cfg1.N) (y : S1024x4096.Idx) : iblk1 V c 1 t y = V c main_v25 y := by
  obtain ⟨e0, e1, e2, e3, e4, e5, e6, e7, e8, e9, e10, e11, e12, e13, e14, e15, e16, e17, e18, e19, e20, e21, e22, e23⟩ := idx_facts1 t
  refine congrArg (V c main_v25) (funext fun a => Fin.ext ?_)
  match a with
  | ⟨0, _⟩ => show win1_1.index t (0 : Fin 2) * 1024 + 1 * (y 0).val = (y 0).val; omega
  | ⟨1, _⟩ => show win1_1.index t (1 : Fin 2) * 4096 + 1 * (y 1).val = (y 1).val; omega

theorem blk1_2 (c : Dev nD) (t : Fin cfg1.N) (y : S1x4096.Idx) : iblk1 V c 2 t y = V c main_v31 y := by
  obtain ⟨e0, e1, e2, e3, e4, e5, e6, e7, e8, e9, e10, e11, e12, e13, e14, e15, e16, e17, e18, e19, e20, e21, e22, e23⟩ := idx_facts1 t
  refine congrArg (V c main_v31) (funext fun a => Fin.ext ?_)
  match a with
  | ⟨0, _⟩ => show win1_2.index t (0 : Fin 2) * 1 + 1 * (y 0).val = (y 0).val; omega
  | ⟨1, _⟩ => show win1_2.index t (1 : Fin 2) * 4096 + 1 * (y 1).val = (y 1).val; omega

theorem blk1_3 (c : Dev nD) (t : Fin cfg1.N) (y : S1024x4096.Idx) : iblk1 V c 3 t y = V c main_v28 y := by
  obtain ⟨e0, e1, e2, e3, e4, e5, e6, e7, e8, e9, e10, e11, e12, e13, e14, e15, e16, e17, e18, e19, e20, e21, e22, e23⟩ := idx_facts1 t
  refine congrArg (V c main_v28) (funext fun a => Fin.ext ?_)
  match a with
  | ⟨0, _⟩ => show win1_3.index t (0 : Fin 2) * 1024 + 1 * (y 0).val = (y 0).val; omega
  | ⟨1, _⟩ => show win1_3.index t (1 : Fin 2) * 4096 + 1 * (y 1).val = (y 1).val; omega

theorem blk1_4 (c : Dev nD) (t : Fin cfg1.N) (y : S1x4096.Idx) : iblk1 V c 4 t y = V c main_v32 y := by
  obtain ⟨e0, e1, e2, e3, e4, e5, e6, e7, e8, e9, e10, e11, e12, e13, e14, e15, e16, e17, e18, e19, e20, e21, e22, e23⟩ := idx_facts1 t
  refine congrArg (V c main_v32) (funext fun a => Fin.ext ?_)
  match a with
  | ⟨0, _⟩ => show win1_4.index t (0 : Fin 2) * 1 + 1 * (y 0).val = (y 0).val; omega
  | ⟨1, _⟩ => show win1_4.index t (1 : Fin 2) * 4096 + 1 * (y 1).val = (y 1).val; omega

theorem blk1_5 (c : Dev nD) (t : Fin cfg1.N) (y : S4096x1024.Idx) : iblk1 V c 5 t y = V c main_v30 y := by
  obtain ⟨e0, e1, e2, e3, e4, e5, e6, e7, e8, e9, e10, e11, e12, e13, e14, e15, e16, e17, e18, e19, e20, e21, e22, e23⟩ := idx_facts1 t
  refine congrArg (V c main_v30) (funext fun a => Fin.ext ?_)
  match a with
  | ⟨0, _⟩ => show win1_5.index t (0 : Fin 2) * 4096 + 1 * (y 0).val = (y 0).val; omega
  | ⟨1, _⟩ => show win1_5.index t (1 : Fin 2) * 1024 + 1 * (y 1).val = (y 1).val; omega

theorem blk1_6 (c : Dev nD) (t : Fin cfg1.N) (y : S1x1024.Idx) : iblk1 V c 6 t y = V c main_v33 y := by
  obtain ⟨e0, e1, e2, e3, e4, e5, e6, e7, e8, e9, e10, e11, e12, e13, e14, e15, e16, e17, e18, e19, e20, e21, e22, e23⟩ := idx_facts1 t
  refine congrArg (V c main_v33) (funext fun a => Fin.ext ?_)
  match a with
  | ⟨0, _⟩ => show win1_6.index t (0 : Fin 2) * 1 + 1 * (y 0).val = (y 0).val; omega
  | ⟨1, _⟩ => show win1_6.index t (1 : Fin 2) * 1024 + 1 * (y 1).val = (y 1).val; omega

theorem blk1_7 (c : Dev nD) (t : Fin cfg1.N) (y : S1x1024.Idx) : iblk1 V c 7 t y = V c main_v34 y := by
  obtain ⟨e0, e1, e2, e3, e4, e5, e6, e7, e8, e9, e10, e11, e12, e13, e14, e15, e16, e17, e18, e19, e20, e21, e22, e23⟩ := idx_facts1 t
  refine congrArg (V c main_v34) (funext fun a => Fin.ext ?_)
  match a with
  | ⟨0, _⟩ => show win1_7.index t (0 : Fin 2) * 1 + 1 * (y 0).val = (y 0).val; omega
  | ⟨1, _⟩ => show win1_7.index t (1 : Fin 2) * 1024 + 1 * (y 1).val = (y 1).val; omega

theorem blk1_8 (c : Dev nD) (t : Fin cfg1.N) (y : S1x1024.Idx) : iblk1 V c 8 t y = V c main_v35 y := by
  obtain ⟨e0, e1, e2, e3, e4, e5, e6, e7, e8, e9, e10, e11, e12, e13, e14, e15, e16, e17, e18, e19, e20, e21, e22, e23⟩ := idx_facts1 t
  refine congrArg (V c main_v35) (funext fun a => Fin.ext ?_)
  match a with
  | ⟨0, _⟩ => show win1_8.index t (0 : Fin 2) * 1 + 1 * (y 0).val = (y 0).val; omega
  | ⟨1, _⟩ => show win1_8.index t (1 : Fin 2) * 1024 + 1 * (y 1).val = (y 1).val; omega

theorem blk1_9 (c : Dev nD) (t : Fin cfg1.N) (y : S1024x128.Idx) : iblk1 V c 9 t y = V c main_v18 y := by
  obtain ⟨e0, e1, e2, e3, e4, e5, e6, e7, e8, e9, e10, e11, e12, e13, e14, e15, e16, e17, e18, e19, e20, e21, e22, e23⟩ := idx_facts1 t
  refine congrArg (V c main_v18) (funext fun a => Fin.ext ?_)
  match a with
  | ⟨0, _⟩ => show win1_9.index t (0 : Fin 2) * 1024 + 1 * (y 0).val = (y 0).val; omega
  | ⟨1, _⟩ => show win1_9.index t (1 : Fin 2) * 128 + 1 * (y 1).val = (y 1).val; omega

theorem blk1_10 (c : Dev nD) (t : Fin cfg1.N) (y : S1x128.Idx) : iblk1 V c 10 t y = V c main_v22 y := by
  obtain ⟨e0, e1, e2, e3, e4, e5, e6, e7, e8, e9, e10, e11, e12, e13, e14, e15, e16, e17, e18, e19, e20, e21, e22, e23⟩ := idx_facts1 t
  refine congrArg (V c main_v22) (funext fun a => Fin.ext ?_)
  match a with
  | ⟨0, _⟩ => show win1_10.index t (0 : Fin 2) * 1 + 1 * (y 0).val = (y 0).val; omega
  | ⟨1, _⟩ => show win1_10.index t (1 : Fin 2) * 128 + 1 * (y 1).val = (y 1).val; omega

theorem emb1_11 (t : Fin cfg1.N) (p : Fin 256) (q : Fin 128) :
    ((cfg1.win 11).blk t).view.emb (ix2 p q) = ix2 (rowOf N_1 t p) q := by
  obtain ⟨e0, e1, e2, e3, e4, e5, e6, e7, e8, e9, e10, e11, e12, e13, e14, e15, e16, e17, e18, e19, e20, e21, e22, e23⟩ := idx_facts1 t
  refine funext fun a => Fin.ext ?_
  match a with
  | ⟨0, _⟩ => show win1_11.index t (0 : Fin 2) * 256 + 1 * p.val = t.val * 256 + p.val; omega
  | ⟨1, _⟩ => show win1_11.index t (1 : Fin 2) * 128 + 1 * q.val = q.val; omega

/-- What grid point `t` writes back is block `t` of the whole-array function of the region-entry arrays. -/
theorem flushed1_eq (c : Dev nD) (t : Fin cfg1.N) :
    (dat1 V c).flushed 11 t = ((cfg1.win 11).blk t).view.read (Elt Ideal)
      (headOf (V c main_v13) (V c main_v25) (V c main_v31) (V c main_v28) (V c main_v32) (V c main_v30) (V c main_v33) (V c main_v34) (V c main_v35) (V c main_v18) (V c main_v22)) := by
  show (cfg1.win 11).cut (grid1.coords t) ((dat1 V c).after 11 t) = _
  rw [after1_11]
  unfold out1_11
  rw [View.canon_unit_zero hz]
  simp only [View.ld_unit_zero (S := S256x1024) hz, View.ld_unit_zero (S := S1024x4096) hz, View.ld_unit_zero (S := S1x4096) hz, View.ld_unit_zero (S := S4096x1024) hz, View.ld_unit_zero (S := S1x1024) hz, View.ld_unit_zero (S := S1024x128) hz, View.ld_unit_zero (S := S1x128) hz]
  funext j
  obtain ⟨p, q, rfl⟩ : ∃ (p : Fin 256) (q : Fin 128), j = ix2 p q := ⟨j 0, j 1, eq_ix2 j⟩
  show k1_pay1 (F := Ideal) _ _ _ _ _ _ _ (ix2 p q) = headOf _ _ _ _ _ _ _ _ _ _ _ (((cfg1.win 11).blk t).view.emb (ix2 p q))
  rw [Rows.head_block_apply, emb1_11]
  unfold headOf
  simp only [blk1_0, blk1_1, blk1_2, blk1_3, blk1_4, blk1_5, blk1_6, blk1_7, blk1_8, blk1_9, blk1_10]

theorem mem_blk1 (t : Fin cfg1.N) (i : S16384x128.Idx) :
    i ∈ ((cfg1.win 11).blk t).view.set ↔ ∀ a : Fin 2, win1_11.index t a * S256x128.size a ≤ (i a).val
      ∧ (i a).val < win1_11.index t a * S256x128.size a + S256x128.size a := by
  show i ∈ ((View.whole main_v36).slice (win1_11.rect t)).set ↔ _
  rw [View.set_slice_whole, Rect.mem_set_unit]
  exact Iff.rfl

/-- Every entry of the output array lies in the block of the grid point its row names. -/
theorem cover1 (i : S16384x128.Idx) :
    ∃ t : Fin cfg1.N, (cfg1.win 11).flush t = true ∧ i ∈ ((cfg1.win 11).blk t).view.set := by
  have hN : grid1.N = 64 := N_1
  have hi0 : (i 0).val < 16384 := (i 0).isLt
  have hi1 : (i 1).val < 128 := (i 1).isLt
  let t : Fin cfg1.N := ⟨(i 0).val / 256, by show (i 0).val / 256 < grid1.N; rw [hN]; omega⟩
  have ht : t.val = (i 0).val / 256 := rfl
  refine ⟨t, flush1_11 t, ?_⟩
  rw [mem_blk1]
  obtain ⟨e0, e1, e2, e3, e4, e5, e6, e7, e8, e9, e10, e11, e12, e13, e14, e15, e16, e17, e18, e19, e20, e21, e22, e23⟩ := idx_facts1 t
  intro a
  match a with
  | ⟨0, _⟩ => show win1_11.index t (0 : Fin 2) * 256 ≤ (i 0).val ∧ (i 0).val < win1_11.index t (0 : Fin 2) * 256 + 256; omega
  | ⟨1, _⟩ => show win1_11.index t (1 : Fin 2) * 128 ≤ (i 1).val ∧ (i 1).val < win1_11.index t (1 : Fin 2) * 128 + 128; omega

/-- The output array after the region: the whole-array function of the region-entry arrays. -/
theorem final1 (c : Dev nD) : (dat1 V c).arrAt 11 cfg1.N = headOf (V c main_v13) (V c main_v25) (V c main_v31) (V c main_v28) (V c main_v32) (V c main_v30) (V c main_v33) (V c main_v34) (V c main_v35) (V c main_v18) (V c main_v22) :=
  (dat1 V c).arrAt_eq_of_cover 11 _ (fun t _ => flushed1_eq V c t) cover1

end Cert.KernelIdeal.Arrays
end
-- ==== Proof.LibScatter.lean ====
/-
  A scatter whose body returns the update, read at an index that exactly one update writes.

  The host scatter folds over the updates in row-major order; each update that lands inside the operand
  overwrites one entry.  An entry that exactly one update lands on ends at that update, whatever the operand held
  there and whatever the other updates did elsewhere.
-/
import Idealize.ShloMosaic.PureOps.ShapeOps
import Idealize.ShloMosaic.Lib.ValueIdx

namespace Cert.LibScatter

open Idealize.ShloMosaic

/-- A left fold of overwrites.  Step `n` either leaves the array alone (`ρ n = none`) or overwrites entry `i`
    (`ρ n = some i`) with `upd n`.  If every step that writes entry `i0` writes `v` there, and either the start
    already holds `v` at `i0` or some step writes `i0`, the fold ends with `v` at `i0`. -/
theorem foldl_overwrite {ι κ α : Type} (ρ : κ → Option ι) (upd : κ → α) (step : (ι → α) → κ → (ι → α))
    (hhit : ∀ r n i, ρ n = some i → step r n i = upd n)
    (hmiss : ∀ r n i i', ρ n = some i → i' ≠ i → step r n i' = r i')
    (hnone : ∀ r n i', ρ n = none → step r n i' = r i')
    (i0 : ι) (v : α) (L : List κ) :
    ∀ (r : ι → α), (∀ n ∈ L, ρ n = some i0 → upd n = v) → (r i0 = v ∨ ∃ n ∈ L, ρ n = some i0) →
      (L.foldl step r) i0 = v := by
  induction L with
  | nil =>
    intro r _ h
    rcases h with h | ⟨n, hn, _⟩
    · exact h
    · exact absurd hn List.not_mem_nil
  | cons n L ih =>
    intro r hall h
    rw [List.foldl_cons]
    apply ih
    · intro n' hn' h'
      exact hall n' (List.mem_cons_of_mem _ hn') h'
    · cases hρ : ρ n with
      | none =>
        rcases h with h | ⟨n', hn', h'⟩
        · exact Or.inl ((hnone r n i0 hρ).trans h)
        · rcases List.mem_cons.1 hn' with rfl | hmem
          · rw [hρ] at h'; cases h'
          · exact Or.inr ⟨n', hmem, h'⟩
      | some i =>
        by_cases hi : i = i0
        · subst hi
          exact Or.inl ((hhit r n i hρ).trans (hall n List.mem_cons_self hρ))
        · rcases h with h | ⟨n', hn', h'⟩
          · exact Or.inl ((hmiss r n i i0 hρ (Ne.symm hi)).trans h)
          · rcases List.mem_cons.1 hn' with rfl | hmem
            · rw [hρ] at h'; exact absurd (Option.some.inj h') hi
            · exact Or.inr ⟨n', hmem, h'⟩

/-- A scatter that replaces (its body returns the update), read at an entry `i0` on which update `j0`, and
    no other, lands: the update's value there. -/
theorem scatter_replace_apply {s si u : Shape} {α : Type} {w : Nat} (d : ScatterDims s si u) (x : s.Idx → α)
    (idx : IVec si w) (upd : u.Idx → α) (i0 : s.Idx) (j0 : u.Idx) (h0 : d.resultIdx? j0 idx = some i0)
    (huniq : ∀ j, d.resultIdx? j idx = some i0 → j = j0) :
    Host.scatter d (fun _ b => b) x idx upd i0 = upd j0 := by
  unfold Host.scatter
  refine foldl_overwrite (fun n => d.resultIdx? (u.rowMajor.symm n) idx) (fun n => upd (u.rowMajor.symm n)) _
    (fun r n i h => ?_) (fun r n i i' h hne => ?_) (fun r n i' h => ?_) i0 (upd j0)
    (List.finRange u.numel) x (fun n _ hn => congrArg upd (huniq _ hn)) (Or.inr ⟨u.rowMajor j0, List.mem_finRange _, ?_⟩)
  · simp only [h]
    exact if_pos trivial
  · simp only [h]
    exact if_neg hne
  · simp only [h]
  · show d.resultIdx? (u.rowMajor.symm (u.rowMajor j0)) idx = some i0
    rw [Equiv.symm_apply_apply]
    exact h0

end Cert.LibScatter
-- ==== Proof.KernelPad.lean ====
/-
  Zero padding by a replacing scatter at offset 0.

  The kernel's host code pads the `[10, 1024]` read-out weight to 128 rows, and the 10 biases to 128, by scattering
  them into arrays of zeros at start index 0.  Update `(o, d)` lands on entry `(o, d)` and on no other, so the padded
  array read at a row below 10 is the weight itself; what the rows from 10 on hold is never used.
-/
import proofs.«127397_j26225070309871_2_alg».proof.Proof.Gen.KernelIdeal
import proofs.«127397_j26225070309871_2_alg».proof.Proof.LibScatter
import Idealize.ShloMosaic.Lib.ValueIdx

set_option maxRecDepth 16384
noncomputable section
namespace Cert.KernelIdeal.Pad
open Cert.KernelIdeal Idealize.ShloMosaic Idealize.ShloMosaic.ValueIdx

theorem start_zero2 (idx : IVec S1 32) (hidx : ∀ k, idx k = 0#32) (j : S10x1024.Idx) (a : Fin 2) :
    scatter_S128x1024_S1_S10x1024_01_n_0_0.start j idx a = 0 := by
  unfold ScatterDims.start
  split
  · rw [hidx]; rfl
  · rfl

theorem landing2 (idx : IVec S1 32) (hidx : ∀ k, idx k = 0#32) (j : S10x1024.Idx) :
    scatter_S128x1024_S1_S10x1024_01_n_0_0.resultIdx? j idx
      = some (ix2 (Fin.castLE (by decide : 10 ≤ 128) (j 0)) (j 1)) := by
  have hw0 : ∀ h, scatter_S128x1024_S1_S10x1024_01_n_0_0.window j ⟨0, h⟩ = (j 0).val := fun _ => rfl
  have hw1 : ∀ h, scatter_S128x1024_S1_S10x1024_01_n_0_0.window j ⟨1, h⟩ = (j 1).val := fun _ => rfl
  have hj0 : (j 0).val < 10 := (j 0).isLt
  have hj1 : (j 1).val < 1024 := (j 1).isLt
  unfold ScatterDims.resultIdx?
  rw [dif_pos (fun a => by
    rw [start_zero2 idx hidx j a]
    match a with
    | ⟨0, _⟩ => rw [hw0]; show (0 : Int) ≤ 0 + ((j 0).val : Int) ∧ 0 + ((j 0).val : Int) < (128 : Nat); omega
    | ⟨1, _⟩ => rw [hw1]; show (0 : Int) ≤ 0 + ((j 1).val : Int) ∧ 0 + ((j 1).val : Int) < (1024 : Nat); omega)]
  refine congrArg some (funext fun a => Fin.ext ?_)
  show (scatter_S128x1024_S1_S10x1024_01_n_0_0.start j idx a + (scatter_S128x1024_S1_S10x1024_01_n_0_0.window j a : Int)).toNat = _
  rw [start_zero2 idx hidx j a]
  match a with
  | ⟨0, _⟩ => rw [hw0]; show ((0 : Int) + ((j 0).val : Int)).toNat = (j 0).val; omega
  | ⟨1, _⟩ => rw [hw1]; show ((0 : Int) + ((j 1).val : Int)).toNat = (j 1).val; omega

/-- The padded weight at a row `o < 10` is the weight's row `o`. -/
theorem pad_rows_apply (Z : S128x1024.Idx → EReal) (A : S10x1024.Idx → EReal) (idx : IVec S1 32) (hidx : ∀ k, idx k = 0#32)
    (o : Fin 10) (d : Fin 1024) :
    Host.scatter scatter_S128x1024_S1_S10x1024_01_n_0_0 (fun _ b => b) Z idx A (ix2 (Fin.castLE (by decide : 10 ≤ 128) o) d)
      = A (ix2 o d) := by
  refine LibScatter.scatter_replace_apply _ Z idx A _ (ix2 o d) (landing2 idx hidx (ix2 o d)) fun j hj => ?_
  rw [landing2 idx hidx j] at hj
  have h := Option.some.inj hj
  have h0 : (j 0).val = o.val := congrArg (fun i : S128x1024.Idx => (i 0).val) h
  have h1 : j 1 = d := congrArg (fun i : S128x1024.Idx => i 1) h
  rw [eq_ix2 j]
  exact congrArg₂ ix2 (Fin.ext h0) h1

theorem start_zero1 (idx : IVec S1 32) (hidx : ∀ k, idx k = 0#32) (j : S10.Idx) (a : Fin 1) :
    scatter_S128_S1_S10_0_n_0_0.start j idx a = 0 := by
  unfold ScatterDims.start
  split
  · rw [hidx]; rfl
  · rfl

theorem landing1 (idx : IVec S1 32) (hidx : ∀ k, idx k = 0#32) (j : S10.Idx) :
    scatter_S128_S1_S10_0_n_0_0.resultIdx? j idx = some (ix1 (Fin.castLE (by decide : 10 ≤ 128) (j 0))) := by
  have hw0 : ∀ h, scatter_S128_S1_S10_0_n_0_0.window j ⟨0, h⟩ = (j 0).val := fun _ => rfl
  have hj0 : (j 0).val < 10 := (j 0).isLt
  unfold ScatterDims.resultIdx?
  rw [dif_pos (fun a => by
    rw [start_zero1 idx hidx j a]
    match a with
    | ⟨0, _⟩ => rw [hw0]; show (0 : Int) ≤ 0 + ((j 0).val : Int) ∧ 0 + ((j 0).val : Int) < (128 : Nat); omega)]
  refine congrArg some (funext fun a => Fin.ext ?_)
  show (scatter_S128_S1_S10_0_n_0_0.start j idx a + (scatter_S128_S1_S10_0_n_0_0.window j a : Int)).toNat = _
  rw [start_zero1 idx hidx j a]
  match a with
  | ⟨0, _⟩ => rw [hw0]; show ((0 : Int) + ((j 0).val : Int)).toNat = (j 0).val; omega

/-- The padded bias at an entry `o < 10` is the bias's entry `o`. -/
theorem pad_vec_apply (Z : S128.Idx → EReal) (A : S10.Idx → EReal) (idx : IVec S1 32) (hidx : ∀ k, idx k = 0#32) (o : Fin 10) :
    Host.scatter scatter_S128_S1_S10_0_n_0_0 (fun _ b => b) Z idx A (ix1 (Fin.castLE (by decide : 10 ≤ 128) o)) = A (ix1 o) := by
  refine LibScatter.scatter_replace_apply _ Z idx A _ (ix1 o) (landing1 idx hidx (ix1 o)) fun j hj => ?_
  rw [landing1 idx hidx j] at hj
  have h := Option.some.inj hj
  have h0 : (j 0).val = o.val := congrArg (fun i : S128.Idx => (i 0).val) h
  rw [eq_ix1 j]
  exact congrArg ix1 (Fin.ext h0)

end Cert.KernelIdeal.Pad
end
-- ==== Proof.KernelHost.lean ====
/-
  The kernel program's host operations, read at an entry.

  Before each region the host lays the arguments out for the kernel: the `[4, 1024, 1024]` projection weights are
  flattened to `[4096, 1024]` and transposed, the `[4, 1024]` biases flattened to one row, the `[1024, 4096]` weight
  transposed, the length-1024 vectors reshaped to one row, the read-out weight and bias padded with zeros to 128
  (and the weight transposed).  Narrowing to the shorter float format is the identity at the exact values.  Each
  lemma reads one region-entry array at an entry as an argument array at the corresponding entry; the second
  region's input is the first region's output, and no region or host operation writes an argument.
-/
import proofs.«127397_j26225070309871_2_alg».proof.Proof.Gen.KernelIdeal.Frame
import proofs.«127397_j26225070309871_2_alg».proof.Proof.Spec
import proofs.«127397_j26225070309871_2_alg».proof.Proof.KernelPad
import Idealize.ShloMosaic.Lib.Pipeline.Value
import Idealize.ShloMosaic.Lib.ValueLayout
import Idealize.ShloMosaic.Lib.StableHlo.Run

set_option maxRecDepth 16384

noncomputable section
namespace Cert.KernelIdeal.HostSide
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open Idealize.ShloMosaic.StableHlo

/-! ## The host operations' layouts, at an entry -/

/-- A `[4, 1024, 1024]` weight flattened to `[4096, 1024]` and transposed: entry `(d, k)` is the weight of head
    `k / 1024`, direction `k % 1024`, input `d`. -/
theorem flat_weight_apply (A : S4x1024x1024.Idx → EReal) (h1 : S4x1024x1024.ShapeCasts S4096x1024)
    (h2 : S4096x1024.Transposes [1, 0] S1024x4096) (d : Fin 1024) (k : Fin 4096) :
    transpose S1024x4096 [1, 0] (shapeCast S4096x1024 A h1) h2 (ix2 d k)
      = A (ix3 (BilinearNorm.headOf k) (BilinearNorm.dirOf k) d) := by
  rw [transpose_ix2_apply]
  refine shapeCast_apply A h1 _ _ ?_
  rw [Shape.rowMajor_val_three, Shape.rowMajor_val_two]
  show (k.val / 1024 * 1024 + k.val % 1024) * 1024 + d.val = k.val * 1024 + d.val
  omega

/-- A `[4, 1024]` bias flattened to one row of 4096. -/
theorem flat_bias_apply (b : S4x1024.Idx → EReal) (h : S4x1024.ShapeCasts S1x4096) (u : Fin 1) (k : Fin 4096) :
    shapeCast S1x4096 b h (ix2 u k) = b (ix2 (BilinearNorm.headOf k) (BilinearNorm.dirOf k)) := by
  refine shapeCast_apply b h _ _ ?_
  rw [Shape.rowMajor_val_two, Shape.rowMajor_val_two]
  have hu : u.val = 0 := by omega
  show k.val / 1024 * 1024 + k.val % 1024 = u.val * 4096 + k.val
  omega

variable (m : (ℓ : Loc nD τ sig) → Buf (Elt Ideal) ℓ) (ρ : Dev nD → PrngReg)

/-! ## The first region's entry arrays, from the arguments -/

theorem V1_arg0 (c : Dev nD) : V1 m ρ c main_arg0 = m ((c : Thread nD τ).loc main_arg0) := by
  show StableHlo.after hostOps0 (W0 m ρ c) (Proc.devRef .tc main_arg0) = _
  after_results

theorem V1_v2_apply (c : Dev nD) (d : Fin 1024) (k : Fin 4096) :
    V1 m ρ c main_v2 (ix2 d k) = m ((c : Thread nD τ).loc main_arg1) (ix3 (BilinearNorm.headOf k) (BilinearNorm.dirOf k) d) := by
  show StableHlo.after hostOps0 (W0 m ρ c) (Proc.devRef .tc main_v2) (ix2 d k) = _
  after_results
  exact flat_weight_apply (m ((c : Thread nD τ).loc main_arg1)) _ _ d k

theorem V1_v5_apply (c : Dev nD) (d : Fin 1024) (k : Fin 4096) :
    V1 m ρ c main_v5 (ix2 d k) = m ((c : Thread nD τ).loc main_arg3) (ix3 (BilinearNorm.headOf k) (BilinearNorm.dirOf k) d) := by
  show StableHlo.after hostOps0 (W0 m ρ c) (Proc.devRef .tc main_v5) (ix2 d k) = _
  after_results
  exact flat_weight_apply (m ((c : Thread nD τ).loc main_arg3)) _ _ d k

theorem V1_v8_apply (c : Dev nD) (u : Fin 1) (k : Fin 4096) :
    V1 m ρ c main_v8 (ix2 u k) = m ((c : Thread nD τ).loc main_arg2) (ix2 (BilinearNorm.headOf k) (BilinearNorm.dirOf k)) := by
  show StableHlo.after hostOps0 (W0 m ρ c) (Proc.devRef .tc main_v8) (ix2 u k) = _
  after_results
  exact flat_bias_apply (m ((c : Thread nD τ).loc main_arg2)) _ u k

theorem V1_v9_apply (c : Dev nD) (u : Fin 1) (k : Fin 4096) :
    V1 m ρ c main_v9 (ix2 u k) = m ((c : Thread nD τ).loc main_arg4) (ix2 (BilinearNorm.headOf k) (BilinearNorm.dirOf k)) := by
  show StableHlo.after hostOps0 (W0 m ρ c) (Proc.devRef .tc main_v9) (ix2 u k) = _
  after_results
  exact flat_bias_apply (m ((c : Thread nD τ).loc main_arg4)) _ u k

theorem V1_v7_apply (c : Dev nD) (k : Fin 4096) (q : Fin 1024) :
    V1 m ρ c main_v7 (ix2 k q) = m ((c : Thread nD τ).loc main_arg5) (ix2 q k) := by
  show StableHlo.after hostOps0 (W0 m ρ c) (Proc.devRef .tc main_v7) (ix2 k q) = _
  after_results
  exact transpose_ix2_apply (m ((c : Thread nD τ).loc main_arg5)) _ k q

theorem V1_v10_apply (c : Dev nD) (u : Fin 1) (q : Fin 1024) :
    V1 m ρ c main_v10 (ix2 u q) = m ((c : Thread nD τ).loc main_arg6) (ix1 q) := by
  show StableHlo.after hostOps0 (W0 m ρ c) (Proc.devRef .tc main_v10) (ix2 u q) = _
  after_results
  exact shapeCast_a_1a_apply (m ((c : Thread nD τ).loc main_arg6)) _ u q

theorem V1_v11_apply (c : Dev nD) (u : Fin 1) (q : Fin 1024) :
    V1 m ρ c main_v11 (ix2 u q) = m ((c : Thread nD τ).loc main_arg7) (ix1 q) := by
  show StableHlo.after hostOps0 (W0 m ρ c) (Proc.devRef .tc main_v11) (ix2 u q) = _
  after_results
  exact shapeCast_a_1a_apply (m ((c : Thread nD τ).loc main_arg7)) _ u q

theorem V1_v12_apply (c : Dev nD) (u : Fin 1) (q : Fin 1024) :
    V1 m ρ c main_v12 (ix2 u q) = m ((c : Thread nD τ).loc main_arg8) (ix1 q) := by
  show StableHlo.after hostOps0 (W0 m ρ c) (Proc.devRef .tc main_v12) (ix2 u q) = _
  after_results
  exact shapeCast_a_1a_apply (m ((c : Thread nD τ).loc main_arg8)) _ u q

/-! ## The second region's entry arrays, from the arguments and the first region's output -/

theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results

theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

theorem W2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results

theorem W2_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results

theorem W2_arg14 (c : Dev nD) : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  after_results

theorem W2_arg15 (c : Dev nD) : W2 m ρ c (Proc.devRef .tc main_arg15) = m ((c : Thread nD τ).loc main_arg15) := by
  refine (W2_of_ne m ρ c main_arg15 (by decide)).trans ?_
  show StableHlo.after hostOps0 (W0 m ρ c) (Proc.devRef .tc main_arg15) = _
  after_results

theorem W2_arg16 (c : Dev nD) : W2 m ρ c (Proc.devRef .tc main_arg16) = m ((c : Thread nD τ).loc main_arg16) := by
  refine (W2_of_ne m ρ c main_arg16 (by decide)).trans ?_
  show StableHlo.after hostOps0 (W0 m ρ c) (Proc.devRef .tc main_arg16) = _
  after_results

theorem W2_arg17 (c : Dev nD) : W2 m ρ c (Proc.devRef .tc main_arg17) = m ((c : Thread nD τ).loc main_arg17) := by
  refine (W2_of_ne m ρ c main_arg17 (by decide)).trans ?_
  show StableHlo.after hostOps0 (W0 m ρ c) (Proc.devRef .tc main_arg17) = _
  after_results

theorem W2_arg18 (c : Dev nD) : W2 m ρ c (Proc.devRef .tc main_arg18) = m ((c : Thread nD τ).loc main_arg18) := by
  refine (W2_of_ne m ρ c main_arg18 (by decide)).trans ?_
  show StableHlo.after hostOps0 (W0 m ρ c) (Proc.devRef .tc main_arg18) = _
  after_results

theorem V3_v13 (c : Dev nD) : V3 m ρ c main_v13 = (dat0 (V1 m ρ) c).arrAt 9 cfg0.N := by
  show StableHlo.after hostOps1 (W2 m ρ c) (Proc.devRef .tc main_v13) = _
  after_results
  exact W2_arr m ρ c 9

theorem V3_v25_apply (c : Dev nD) (d : Fin 1024) (k : Fin 4096) :
    V3 m ρ c main_v25 (ix2 d k) = m ((c : Thread nD τ).loc main_arg9) (ix3 (BilinearNorm.headOf k) (BilinearNorm.dirOf k) d) := by
  show StableHlo.after hostOps1 (W2 m ρ c) (Proc.devRef .tc main_v25) (ix2 d k) = _
  after_results
  exact (flat_weight_apply (W2 m ρ c (Proc.devRef .tc main_arg9)) _ _ d k).trans (congrFun (W2_arg9 m ρ c) _)

theorem V3_v28_apply (c : Dev nD) (d : Fin 1024) (k : Fin 4096) :
    V3 m ρ c main_v28 (ix2 d k) = m ((c : Thread nD τ).loc main_arg11) (ix3 (BilinearNorm.headOf k) (BilinearNorm.dirOf k) d) := by
  show StableHlo.after hostOps1 (W2 m ρ c) (Proc.devRef .tc main_v28) (ix2 d k) = _
  after_results
  exact (flat_weight_apply (W2 m ρ c (Proc.devRef .tc main_arg11)) _ _ d k).trans (congrFun (W2_arg11 m ρ c) _)

theorem V3_v31_apply (c : Dev nD) (u : Fin 1) (k : Fin 4096) :
    V3 m ρ c main_v31 (ix2 u k) = m ((c : Thread nD τ).loc main_arg10) (ix2 (BilinearNorm.headOf k) (BilinearNorm.dirOf k)) := by
  show StableHlo.after hostOps1 (W2 m ρ c) (Proc.devRef .tc main_v31) (ix2 u k) = _
  after_results
  exact (flat_bias_apply (W2 m ρ c (Proc.devRef .tc main_arg10)) _ u k).trans (congrFun (W2_arg10 m ρ c) _)

theorem V3_v32_apply (c : Dev nD) (u : Fin 1) (k : Fin 4096) :
    V3 m ρ c main_v32 (ix2 u k) = m ((c : Thread nD τ).loc main_arg12) (ix2 (BilinearNorm.headOf k) (BilinearNorm.dirOf k)) := by
  show StableHlo.after hostOps1 (W2 m ρ c) (Proc.devRef .tc main_v32) (ix2 u k) = _
  after_results
  exact (flat_bias_apply (W2 m ρ c (Proc.devRef .tc main_arg12)) _ u k).trans (congrFun (W2_arg12 m ρ c) _)

theorem V3_v30_apply (c : Dev nD) (k : Fin 4096) (q : Fin 1024) :
    V3 m ρ c main_v30 (ix2 k q) = m ((c : Thread nD τ).loc main_arg13) (ix2 q k) := by
  show StableHlo.after hostOps1 (W2 m ρ c) (Proc.devRef .tc main_v30) (ix2 k q) = _
  after_results
  exact (transpose_ix2_apply (W2 m ρ c (Proc.devRef .tc main_arg13)) _ k q).trans (congrFun (W2_arg13 m ρ c) _)

theorem V3_v33_apply (c : Dev nD) (u : Fin 1) (q : Fin 1024) :
    V3 m ρ c main_v33 (ix2 u q) = m ((c : Thread nD τ).loc main_arg14) (ix1 q) := by
  show StableHlo.after hostOps1 (W2 m ρ c) (Proc.devRef .tc main_v33) (ix2 u q) = _
  after_results
  exact (shapeCast_a_1a_apply (W2 m ρ c (Proc.devRef .tc main_arg14)) _ u q).trans (congrFun (W2_arg14 m ρ c) _)

theorem V3_v34_apply (c : Dev nD) (u : Fin 1) (q : Fin 1024) :
    V3 m ρ c main_v34 (ix2 u q) = m ((c : Thread nD τ).loc main_arg15) (ix1 q) := by
  show StableHlo.after hostOps1 (W2 m ρ c) (Proc.devRef .tc main_v34) (ix2 u q) = _
  after_results
  exact (shapeCast_a_1a_apply (W2 m ρ c (Proc.devRef .tc main_arg15)) _ u q).trans (congrFun (W2_arg15 m ρ c) _)

theorem V3_v35_apply (c : Dev nD) (u : Fin 1) (q : Fin 1024) :
    V3 m ρ c main_v35 (ix2 u q) = m ((c : Thread nD τ).loc main_arg16) (ix1 q) := by
  show StableHlo.after hostOps1 (W2 m ρ c) (Proc.devRef .tc main_v35) (ix2 u q) = _
  after_results
  exact (shapeCast_a_1a_apply (W2 m ρ c (Proc.devRef .tc main_arg16)) _ u q).trans (congrFun (W2_arg16 m ρ c) _)

/-- The padded, transposed read-out weight at a column below 10. -/
theorem V3_v18_apply (c : Dev nD) (d : Fin 1024) (o : Fin 10) :
    V3 m ρ c main_v18 (ix2 d (Fin.castLE (by decide : 10 ≤ 128) o)) = m ((c : Thread nD τ).loc main_arg17) (ix2 o d) := by
  show StableHlo.after hostOps1 (W2 m ρ c) (Proc.devRef .tc main_v18) (ix2 d (Fin.castLE (by decide : 10 ≤ 128) o)) = _
  after_results
  rw [truncf_apply, transpose_ix2_apply]
  refine (Pad.pad_rows_apply _ _ _ (fun _ => rfl) o d).trans ?_
  exact congrFun (W2_arg17 m ρ c) _

/-- The padded read-out bias at an entry below 10. -/
theorem V3_v22_apply (c : Dev nD) (u : Fin 1) (o : Fin 10) :
    V3 m ρ c main_v22 (ix2 u (Fin.castLE (by decide : 10 ≤ 128) o)) = m ((c : Thread nD τ).loc main_arg18) (ix1 o) := by
  show StableHlo.after hostOps1 (W2 m ρ c) (Proc.devRef .tc main_v22) (ix2 u (Fin.castLE (by decide : 10 ≤ 128) o)) = _
  after_results
  refine (shapeCast_a_1a_apply (Host.scatter scatter_S128_S1_S10_0_n_0_0 (fun _ b => b)
      (broadcastInDim S128 ![] Gen.bcast_S_S128 (constant (F := Ideal) S_ .f32 0x00000000#32))
      (broadcastInDim S1 ![] Gen.bcast_S_S1 (constantI S_ 32 0#32)) (W2 m ρ c (Proc.devRef .tc main_arg18))) _ u
      (Fin.castLE (by decide : 10 ≤ 128) o)).trans ?_
  refine (Pad.pad_vec_apply _ _ _ (fun _ => rfl) o).trans ?_
  exact congrFun (W2_arg18 m ρ c) _

end Cert.KernelIdeal.HostSide
end
-- ==== Proof.SpecArrays.lean ====
/-
  The whole network as one function of the nineteen argument arrays.

  Two layers, then the read-out; the arguments in the layouts both programs receive them in: the `[4, 1024, 1024]`
  projection weights read at (head, direction, input), the `[1024, 4096]` weight read at (output, flat basis
  index), the `[10, 1024]` read-out weight at (output, input).  Row `i 0` of the result depends on row `i 0` of the
  input only.
-/
import proofs.«127397_j26225070309871_2_alg».proof.Proof.Spec

noncomputable section

namespace Cert.BilinearNorm

open Idealize.ShloMosaic Idealize.ShloMosaic.ValueIdx

/-- One layer on whole arrays, from arguments in the programs' layouts. -/
def layerOfArgs (X : (⟨2, ![16384, 1024]⟩ : Shape).Idx → EReal) (wr : (⟨3, ![4, 1024, 1024]⟩ : Shape).Idx → EReal)
    (br : (⟨2, ![4, 1024]⟩ : Shape).Idx → EReal) (wl : (⟨3, ![4, 1024, 1024]⟩ : Shape).Idx → EReal)
    (bl : (⟨2, ![4, 1024]⟩ : Shape).Idx → EReal) (we : (⟨2, ![1024, 4096]⟩ : Shape).Idx → EReal)
    (be g b : (⟨1, ![1024]⟩ : Shape).Idx → EReal) : (⟨2, ![16384, 1024]⟩ : Shape).Idx → EReal := fun i =>
  layer (fun d => X (ix2 (i 0) d))
    (fun d k => wr (ix3 (headOf k) (dirOf k) d)) (fun k => br (ix2 (headOf k) (dirOf k)))
    (fun d k => wl (ix3 (headOf k) (dirOf k) d)) (fun k => bl (ix2 (headOf k) (dirOf k)))
    (fun k q => we (ix2 q k)) (fun q => be (ix1 q)) (fun q => g (ix1 q)) (fun q => b (ix1 q)) (i 1)

/-- The read-out on whole arrays. -/
def readoutOfArgs (H : (⟨2, ![16384, 1024]⟩ : Shape).Idx → EReal) (wf : (⟨2, ![10, 1024]⟩ : Shape).Idx → EReal)
    (bf : (⟨1, ![10]⟩ : Shape).Idx → EReal) : (⟨2, ![16384, 10]⟩ : Shape).Idx → EReal := fun i =>
  readout (fun d => H (ix2 (i 0) d)) (fun d o => wf (ix2 o d)) (fun o => bf (ix1 o)) (i 1)

end Cert.BilinearNorm

end
-- ==== Proof.KernelValue.lean ====
/-
  The idealized kernel's run, read as the network of its arguments.

  The result buffer at the return is the first ten columns of the second region's output array.  That array is
  the read-out, onto 128 columns, of the second layer applied to the first region's output array, which is the
  first layer applied to the input (`KernelArrays.lean`), all at the region-entry arrays the host operations lay
  out from the arguments (`KernelHost.lean`).  Column `o < 10` of the padded read-out weight and bias is column `o`
  of the arguments, so the result is the network of `SpecArrays.lean` of the nineteen argument arrays.
-/
import proofs.«127397_j26225070309871_2_alg».proof.Proof.KernelRun
import proofs.«127397_j26225070309871_2_alg».proof.Proof.KernelArrays
import proofs.«127397_j26225070309871_2_alg».proof.Proof.KernelHost
import proofs.«127397_j26225070309871_2_alg».proof.Proof.SpecArrays

set_option maxRecDepth 16384

noncomputable section
namespace Cert.KernelIdeal.KernelValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open Idealize.ShloMosaic.StableHlo

variable (m : (ℓ : Loc nD τ sig) → Buf (Elt Ideal) ℓ) (ρ : Dev nD → PrngReg)

/-- The whole network of the arguments held by memory `m` on core `c`. -/
def net (c : Dev nD) : S16384x10.Idx → EReal :=
  BilinearNorm.readoutOfArgs
    (BilinearNorm.layerOfArgs (BilinearNorm.layerOfArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
    (m ((c : Thread nD τ).loc main_arg17)) (m ((c : Thread nD τ).loc main_arg18))

/-- The first region's output array, where the second region finds it, is the first layer of the arguments. -/
theorem hidden_apply (c : Dev nD) (r : Fin 16384) (q : Fin 1024) :
    V3 m ρ c main_v13 (ix2 r q) = BilinearNorm.layerOfArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r q) := by
  rw [HostSide.V3_v13, Arrays.final0]
  show BilinearNorm.layer (fun d => V1 m ρ c main_arg0 (ix2 r d))
        (fun d k => V1 m ρ c main_v2 (ix2 d k)) (fun k => V1 m ρ c main_v8 (ix2 (0 : Fin 1) k))
        (fun d k => V1 m ρ c main_v5 (ix2 d k)) (fun k => V1 m ρ c main_v9 (ix2 (0 : Fin 1) k))
        (fun k q => V1 m ρ c main_v7 (ix2 k q)) (fun q => V1 m ρ c main_v10 (ix2 (0 : Fin 1) q))
        (fun q => V1 m ρ c main_v11 (ix2 (0 : Fin 1) q)) (fun q => V1 m ρ c main_v12 (ix2 (0 : Fin 1) q)) q
      = BilinearNorm.layer (fun d => (m ((c : Thread nD τ).loc main_arg0)) (ix2 r d))
        (fun d k => (m ((c : Thread nD τ).loc main_arg1)) (ix3 (BilinearNorm.headOf k) (BilinearNorm.dirOf k) d)) (fun k => (m ((c : Thread nD τ).loc main_arg2)) (ix2 (BilinearNorm.headOf k) (BilinearNorm.dirOf k)))
        (fun d k => (m ((c : Thread nD τ).loc main_arg3)) (ix3 (BilinearNorm.headOf k) (BilinearNorm.dirOf k) d)) (fun k => (m ((c : Thread nD τ).loc main_arg4)) (ix2 (BilinearNorm.headOf k) (BilinearNorm.dirOf k)))
        (fun k q => (m ((c : Thread nD τ).loc main_arg5)) (ix2 q k)) (fun q => (m ((c : Thread nD τ).loc main_arg6)) (ix1 q))
        (fun q => (m ((c : Thread nD τ).loc main_arg7)) (ix1 q)) (fun q => (m ((c : Thread nD τ).loc main_arg8)) (ix1 q)) q
  have e0 : (fun d => V1 m ρ c main_arg0 (ix2 r d))
      = (fun d => (m ((c : Thread nD τ).loc main_arg0)) (ix2 r d)) :=
    funext fun d => congrFun (HostSide.V1_arg0 m ρ c) _
  have e1 : (fun d k => V1 m ρ c main_v2 (ix2 d k))
      = (fun d k => (m ((c : Thread nD τ).loc main_arg1)) (ix3 (BilinearNorm.headOf k) (BilinearNorm.dirOf k) d)) :=
    funext fun d => funext fun k => HostSide.V1_v2_apply m ρ c d k
  have e2 : (fun k => V1 m ρ c main_v8 (ix2 (0 : Fin 1) k))
      = (fun k => (m ((c : Thread nD τ).loc main_arg2)) (ix2 (BilinearNorm.headOf k) (BilinearNorm.dirOf k))) :=
    funext fun k => HostSide.V1_v8_apply m ρ c 0 k
  have e3 : (fun d k => V1 m ρ c main_v5 (ix2 d k))
      = (fun d k => (m ((c : Thread nD τ).loc main_arg3)) (ix3 (BilinearNorm.headOf k) (BilinearNorm.dirOf k) d)) :=
    funext fun d => funext fun k => HostSide.V1_v5_apply m ρ c d k
  have e4 : (fun k => V1 m ρ c main_v9 (ix2 (0 : Fin 1) k))
      = (fun k => (m ((c : Thread nD τ).loc main_arg4)) (ix2 (BilinearNorm.headOf k) (BilinearNorm.dirOf k))) :=
    funext fun k => HostSide.V1_v9_apply m ρ c 0 k
  have e5 : (fun k q => V1 m ρ c main_v7 (ix2 k q))
      = (fun k q => (m ((c : Thread nD τ).loc main_arg5)) (ix2 q k)) :=
    funext fun k => funext fun q => HostSide.V1_v7_apply m ρ c k q
  have e6 : (fun q => V1 m ρ c main_v10 (ix2 (0 : Fin 1) q))
      = (fun q => (m ((c : Thread nD τ).loc main_arg6)) (ix1 q)) :=
    funext fun q => HostSide.V1_v10_apply m ρ c 0 q
  have e7 : (fun q => V1 m ρ c main_v11 (ix2 (0 : Fin 1) q))
      = (fun q => (m ((c : Thread nD τ).loc main_arg7)) (ix1 q)) :=
    funext fun q => HostSide.V1_v11_apply m ρ c 0 q
  have e8 : (fun q => V1 m ρ c main_v12 (ix2 (0 : Fin 1) q))
      = (fun q => (m ((c : Thread nD τ).loc main_arg8)) (ix1 q)) :=
    funext fun q => HostSide.V1_v12_apply m ρ c 0 q
  rw [e0, e1, e2, e3, e4, e5, e6, e7, e8]

/-- The result buffer at the return is the network of the arguments. -/
theorem result_eq (c : Dev nD) : W5 m ρ c (Proc.devRef .tc main_v37) = net m c := by
  funext i
  obtain ⟨r, o, rfl⟩ : ∃ (r : Fin 16384) (o : Fin 10), i = ix2 r o := ⟨i 0, i 1, eq_ix2 i⟩
  show StableHlo.after hostOps2 (W4 m ρ c) (Proc.devRef .tc main_v37) (ix2 r o) = _
  after_results
  refine (slice2_axis1_apply 0 _ _ r o (Fin.castLE (by decide : 10 ≤ 128) o) (Nat.zero_add _).symm).trans ?_
  rw [show W4 m ρ c (Proc.devRef .tc main_v36) = _ from W4_arr m ρ c 11, Arrays.final1]
  show BilinearNorm.readout (BilinearNorm.layer (fun d => V3 m ρ c main_v13 (ix2 r d))
        (fun d k => V3 m ρ c main_v25 (ix2 d k)) (fun k => V3 m ρ c main_v31 (ix2 (0 : Fin 1) k))
        (fun d k => V3 m ρ c main_v28 (ix2 d k)) (fun k => V3 m ρ c main_v32 (ix2 (0 : Fin 1) k))
        (fun k q => V3 m ρ c main_v30 (ix2 k q)) (fun q => V3 m ρ c main_v33 (ix2 (0 : Fin 1) q))
        (fun q => V3 m ρ c main_v34 (ix2 (0 : Fin 1) q)) (fun q => V3 m ρ c main_v35 (ix2 (0 : Fin 1) q)))
        (fun d o => V3 m ρ c main_v18 (ix2 d o)) (fun o => V3 m ρ c main_v22 (ix2 (0 : Fin 1) o)) (Fin.castLE (by decide : 10 ≤ 128) o)
      = BilinearNorm.readout (BilinearNorm.layer (fun d => BilinearNorm.layerOfArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r d))
        (fun d k => (m ((c : Thread nD τ).loc main_arg9)) (ix3 (BilinearNorm.headOf k) (BilinearNorm.dirOf k) d)) (fun k => (m ((c : Thread nD τ).loc main_arg10)) (ix2 (BilinearNorm.headOf k) (BilinearNorm.dirOf k)))
        (fun d k => (m ((c : Thread nD τ).loc main_arg11)) (ix3 (BilinearNorm.headOf k) (BilinearNorm.dirOf k) d)) (fun k => (m ((c : Thread nD τ).loc main_arg12)) (ix2 (BilinearNorm.headOf k) (BilinearNorm.dirOf k)))
        (fun k q => (m ((c : Thread nD τ).loc main_arg13)) (ix2 q k)) (fun q => (m ((c : Thread nD τ).loc main_arg14)) (ix1 q))
        (fun q => (m ((c : Thread nD τ).loc main_arg15)) (ix1 q)) (fun q => (m ((c : Thread nD τ).loc main_arg16)) (ix1 q)))
        (fun d o => (m ((c : Thread nD τ).loc main_arg17)) (ix2 o d)) (fun o => (m ((c : Thread nD τ).loc main_arg18)) (ix1 o)) o
  have e0 : (fun d => V3 m ρ c main_v13 (ix2 r d))
      = (fun d => BilinearNorm.layerOfArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r d)) :=
    funext fun d => hidden_apply m ρ c r d
  have e1 : (fun d k => V3 m ρ c main_v25 (ix2 d k))
      = (fun d k => (m ((c : Thread nD τ).loc main_arg9)) (ix3 (BilinearNorm.headOf k) (BilinearNorm.dirOf k) d)) :=
    funext fun d => funext fun k => HostSide.V3_v25_apply m ρ c d k
  have e2 : (fun k => V3 m ρ c main_v31 (ix2 (0 : Fin 1) k))
      = (fun k => (m ((c : Thread nD τ).loc main_arg10)) (ix2 (BilinearNorm.headOf k) (BilinearNorm.dirOf k))) :=
    funext fun k => HostSide.V3_v31_apply m ρ c 0 k
  have e3 : (fun d k => V3 m ρ c main_v28 (ix2 d k))
      = (fun d k => (m ((c : Thread nD τ).loc main_arg11)) (ix3 (BilinearNorm.headOf k) (BilinearNorm.dirOf k) d)) :=
    funext fun d => funext fun k => HostSide.V3_v28_apply m ρ c d k
  have e4 : (fun k => V3 m ρ c main_v32 (ix2 (0 : Fin 1) k))
      = (fun k => (m ((c : Thread nD τ).loc main_arg12)) (ix2 (BilinearNorm.headOf k) (BilinearNorm.dirOf k))) :=
    funext fun k => HostSide.V3_v32_apply m ρ c 0 k
  have e5 : (fun k q => V3 m ρ c main_v30 (ix2 k q))
      = (fun k q => (m ((c : Thread nD τ).loc main_arg13)) (ix2 q k)) :=
    funext fun k => funext fun q => HostSide.V3_v30_apply m ρ c k q
  have e6 : (fun q => V3 m ρ c main_v33 (ix2 (0 : Fin 1) q))
      = (fun q => (m ((c : Thread nD τ).loc main_arg14)) (ix1 q)) :=
    funext fun q => HostSide.V3_v33_apply m ρ c 0 q
  have e7 : (fun q => V3 m ρ c main_v34 (ix2 (0 : Fin 1) q))
      = (fun q => (m ((c : Thread nD τ).loc main_arg15)) (ix1 q)) :=
    funext fun q => HostSide.V3_v34_apply m ρ c 0 q
  have e8 : (fun q => V3 m ρ c main_v35 (ix2 (0 : Fin 1) q))
      = (fun q => (m ((c : Thread nD τ).loc main_arg16)) (ix1 q)) :=
    funext fun q => HostSide.V3_v35_apply m ρ c 0 q
  rw [e0, e1, e2, e3, e4, e5, e6, e7, e8]
  unfold BilinearNorm.readout
  beta_reduce
  rw [HostSide.V3_v22_apply m ρ c 0 o]
  refine congrArg (· + _) (Finset.sum_congr rfl fun d _ => ?_)
  rw [HostSide.V3_v18_apply m ρ c d o]

/-- The idealized kernel's run: it terminates with its result at the network of its arguments, the arguments
    unchanged. -/
theorem run : θ_run defs (onTc (τ := τ) (main (F := Ideal))) ⟨m, fun _ => 0, ρ⟩ fun r => ∀ c : Dev nD,
      r.2.mem ((c : Thread nD τ).loc main_v37) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c =>
    ⟨(h c _ (mem_uc main_v37 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c)⟩)
    (Named.run_all m ρ)

end Cert.KernelIdeal.KernelValue
end
-- ==== Proof.RefRows.lean ====
/-
  The reference's whole-array operations, entry by entry, at the exact values.

  One layer of the reference is a fixed composition of host operations on whole arrays: two contractions of the
  `[16384, 1024]` input with `[4, 1024, 1024]` weights, biases broadcast over the rows, an entrywise product, a
  reshape of `[16384, 4, 1024]` to `[16384, 4096]`, a contraction with the transposed `[1024, 4096]` weight, a bias,
  the residual sum, and the normalisation of every row by its mean and variance.  Read at entry `(r, q)` the
  composition is the layer of `Spec.lean` applied to row `r`, at `q`, with the `[4, 1024]` basis axes flattened in
  row-major order (`headOf`, `dirOf`).  The read-out is one more contraction with a transposed weight plus a bias.
-/
import proofs.«127397_j26225070309871_2_alg».proof.ReferenceIdeal
import proofs.«127397_j26225070309871_2_alg».proof.Proof.Gen.ReferenceIdeal
import proofs.«127397_j26225070309871_2_alg».proof.Proof.Spec
import proofs.«127397_j26225070309871_2_alg».proof.Proof.LibDotSum
import Idealize.ShloMosaic.Lib.Pipeline.Value
import Idealize.ShloMosaic.Lib.ValueLayout

noncomputable section
namespace Cert.ReferenceIdeal.RefRows
open Cert.ReferenceIdeal Idealize.ShloMosaic Idealize.ShloMosaic.ValueIdx
open Facts₀ Facts

/-! ## The contractions -/

/-- The contraction of a row with the weights of head `h`, direction `s`. -/
theorem dot3_apply (A : FVec Ideal S16384x1024 .f32) (B : FVec Ideal S4x1024x1024 .f32) (r : Fin 16384) (h : Fin 4) (s : Fin 1024) :
    Host.dotGeneral dot_S16384x1024_S4x1024x1024_S16384x4x1024_1_2_0_01_n_n none A B (ix3 r h s)
      = ∑ d : Fin 1024, A (ix2 r d) * B (ix3 h s d) := by
  refine (Ideal.dotGeneral_apply _ none _ A B (ix3 r h s)).trans ?_
  refine Cert.LibDotSum.sum_contr_eq dot_S16384x1024_S4x1024x1024_S16384x4x1024_1_2_0_01_n_n 1024 rfl rfl A B (ix3 r h s) _ _
    (fun d => congrArg A ?_) (fun d => congrArg B ?_)
  · funext ax; apply Fin.ext
    match ax with
    | ⟨0, _⟩ => rfl
    | ⟨1, _⟩ => exact (DotDims.lhsIdx_val_of_single _ rfl _ _).trans (contrEquiv1_symm_val _ 1024 rfl rfl d)
  · funext ax; apply Fin.ext
    match ax with
    | ⟨0, _⟩ => rfl
    | ⟨1, _⟩ => rfl
    | ⟨2, _⟩ => exact (DotDims.rhsIdx_val_of_single _ rfl _ _).trans (contrEquiv1_symm_val _ 1024 rfl rfl d)

/-- The contraction over the 4096 basis directions. -/
theorem dot_back_apply (A : FVec Ideal S16384x4096 .f32) (B : FVec Ideal S4096x1024 .f32) (r : Fin 16384) (q : Fin 1024) :
    Host.dotGeneral dot_S16384x4096_S4096x1024_S16384x1024_1_0_0_1_n_n none A B (ix2 r q)
      = ∑ d : Fin 4096, A (ix2 r d) * B (ix2 d q) := by
  refine (Ideal.dotGeneral_apply _ none _ A B (ix2 r q)).trans ?_
  refine Cert.LibDotSum.sum_contr_eq dot_S16384x4096_S4096x1024_S16384x1024_1_0_0_1_n_n 4096 rfl rfl A B (ix2 r q) _ _
    (fun d => congrArg A ?_) (fun d => congrArg B ?_)
  · funext ax; apply Fin.ext
    match ax with
    | ⟨0, _⟩ => rfl
    | ⟨1, _⟩ => exact (DotDims.lhsIdx_val_of_single _ rfl _ _).trans (contrEquiv1_symm_val _ 4096 rfl rfl d)
  · funext ax; apply Fin.ext
    match ax with
    | ⟨0, _⟩ => exact (DotDims.rhsIdx_val_of_single _ rfl _ _).trans (contrEquiv1_symm_val _ 4096 rfl rfl d)
    | ⟨1, _⟩ => rfl

/-- The read-out's contraction. -/
theorem dot_out_apply (A : FVec Ideal S16384x1024 .f32) (B : FVec Ideal S1024x10 .f32) (r : Fin 16384) (o : Fin 10) :
    Host.dotGeneral dot_S16384x1024_S1024x10_S16384x10_1_0_0_1_n_n none A B (ix2 r o)
      = ∑ d : Fin 1024, A (ix2 r d) * B (ix2 d o) := by
  refine (Ideal.dotGeneral_apply _ none _ A B (ix2 r o)).trans ?_
  refine Cert.LibDotSum.sum_contr_eq dot_S16384x1024_S1024x10_S16384x10_1_0_0_1_n_n 1024 rfl rfl A B (ix2 r o) _ _
    (fun d => congrArg A ?_) (fun d => congrArg B ?_)
  · funext ax; apply Fin.ext
    match ax with
    | ⟨0, _⟩ => rfl
    | ⟨1, _⟩ => exact (DotDims.lhsIdx_val_of_single _ rfl _ _).trans (contrEquiv1_symm_val _ 1024 rfl rfl d)
  · funext ax; apply Fin.ext
    match ax with
    | ⟨0, _⟩ => exact (DotDims.rhsIdx_val_of_single _ rfl _ _).trans (contrEquiv1_symm_val _ 1024 rfl rfl d)
    | ⟨1, _⟩ => rfl

/-! ## Broadcasts, the reshape, the row sum -/

/-- A `[4, 1024]` bias broadcast over the rows of a `[16384, 4, 1024]` array. -/
theorem bias3_apply (b : FVec Ideal S4x1024 .f32) (h1 : S4x1024.BroadcastsInDim S1x4x1024 ![1, 2])
    (h2 : S1x4x1024.BroadcastsInDim S16384x4x1024 ![0, 1, 2]) (r : Fin 16384) (h : Fin 4) (s : Fin 1024) :
    broadcastInDim S16384x4x1024 ![0, 1, 2] h2 (broadcastInDim S1x4x1024 ![1, 2] h1 b) (ix3 r h s) = b (ix2 h s) := by
  refine (broadcastInDim_apply _ h2 _ (ix3 r h s) (ix3 (0 : Fin 1) h s) fun a => ?_).trans
    (broadcastInDim_apply _ h1 b (ix3 (0 : Fin 1) h s) (ix2 h s) fun a => ?_)
  · match a with
    | ⟨0, _⟩ => rfl
    | ⟨1, _⟩ => rfl
    | ⟨2, _⟩ => rfl
  · match a with
    | ⟨0, _⟩ => rfl
    | ⟨1, _⟩ => rfl

/-- A length-`n` bias broadcast over the rows of a `[16384, n]` array. -/
theorem bias2_apply {n : Nat} (b : FVec Ideal ⟨1, ![n]⟩ .f32) (h1 : (⟨1, ![n]⟩ : Shape).BroadcastsInDim ⟨2, ![1, n]⟩ ![1])
    (h2 : (⟨2, ![1, n]⟩ : Shape).BroadcastsInDim ⟨2, ![16384, n]⟩ ![0, 1]) (hn : n ≠ 1) (r : Fin 16384) (q : Fin n) :
    broadcastInDim ⟨2, ![16384, n]⟩ ![0, 1] h2 (broadcastInDim ⟨2, ![1, n]⟩ ![1] h1 b) (ix2 r q) = b (ix1 q) := by
  refine (broadcastInDim_apply _ h2 _ (ix2 r q) (ix2 (0 : Fin 1) q) fun a => ?_).trans
    (broadcastInDim_apply _ h1 b (ix2 (0 : Fin 1) q) (ix1 q) fun a => ?_)
  · match a with
    | ⟨0, _⟩ => rfl
    | ⟨1, _⟩ => exact (if_neg hn).symm
  · match a with
    | ⟨0, _⟩ => exact (if_neg hn).symm

/-- The reshape of `[16384, 4, 1024]` to `[16384, 4096]`: flat direction `k` is head `k / 1024`, direction `k % 1024`. -/
theorem reshape_apply (Z : FVec Ideal S16384x4x1024 .f32) (hc : S16384x4x1024.ShapeCasts S16384x4096) (r : Fin 16384) (k : Fin 4096) :
    shapeCast S16384x4096 Z hc (ix2 r k) = Z (ix3 r (BilinearNorm.headOf k) (BilinearNorm.dirOf k)) := by
  refine shapeCast_apply Z hc _ _ ?_
  rw [Shape.rowMajor_val_three, Shape.rowMajor_val_two]
  show (r.val * 4 + k.val / 1024) * 1024 + k.val % 1024 = r.val * 4096 + k.val
  omega

/-- The host's sum along the rows, from the zero word. -/
theorem rowsum_apply (Z : FVec Ideal S16384x1024 .f32) (h' : S16384x1024.ReducesTo [1] S16384) (hu : 0 < S_.numel) (r : Fin 16384) :
    Host.reduceAdd Z (constant S_ .f32 0x00000000#32) h' hu (ix1 r) = ∑ q : Fin 1024, Z (ix2 r q) := by
  have hred : S16384x1024.Reduces [1] S16384 := by decide
  refine (Ideal.hostReduceAdd_single h' hred Z _ (ix1 r)).trans ?_
  rw [show (constant (F := Ideal) S_ .f32 0x00000000#32 (Shape.Idx.first hu) : EReal) = 0 from Ideal.ofBits_zero_f32, zero_add]
  refine Finset.sum_congr rfl fun q _ => congrArg Z ?_
  funext ax; apply Fin.ext
  match ax with
  | ⟨0, _⟩ => rfl
  | ⟨1, _⟩ => rfl

/-- A vector of row values as a column. -/
theorem col_apply (v : FVec Ideal S16384 .f32) (h : S16384.BroadcastsInDim S16384x1 ![0]) (r : Fin 16384) (u : Fin 1) :
    broadcastInDim S16384x1 ![0] h v (ix2 r u) = v (ix1 r) :=
  broadcastInDim_apply _ h v (ix2 r u) (ix1 r) fun a => by
    match a with
    | ⟨0, _⟩ => rfl

/-- A scalar spread over a column. -/
theorem const_col_apply (c : FVec Ideal S_ .f32) (h : S_.BroadcastsInDim S16384x1 ![]) (r : Fin 16384) (u : Fin 1) :
    broadcastInDim S16384x1 ![] h c (ix2 r u) = c ix0 :=
  broadcastInDim_apply _ h c (ix2 r u) ix0 fun a => a.elim0

/-- A column broadcast along the rows. -/
theorem col_bcast_apply (v : FVec Ideal S16384x1 .f32) (h : S16384x1.BroadcastsInDim S16384x1024 ![0, 1]) (r : Fin 16384) (q : Fin 1024) :
    broadcastInDim S16384x1024 ![0, 1] h v (ix2 r q) = v (ix2 r (0 : Fin 1)) :=
  broadcastInDim_apply _ h v (ix2 r q) (ix2 r (0 : Fin 1)) fun a => by
    match a with
    | ⟨0, _⟩ => rfl
    | ⟨1, _⟩ => rfl

end Cert.ReferenceIdeal.RefRows
end
-- ==== Proof.RefLayer.lean ====
/-
  One layer and the read-out of the reference, on whole arrays, read row by row.

  `layerArr` and `readoutArr` are the reference's own compositions of host operations, with the argument arrays
  as parameters.  Read at entry `(r, q)` a layer is the layer of `Spec.lean` applied to row `r` of its input, the
  `[4, 1024, 1024]` weights read at head `k / 1024`, direction `k % 1024`, and the `[1024, 4096]` weight read
  transposed; the read-out at `(r, o)` is the read-out of row `r` with the `[10, 1024]` weight read transposed.
-/
import proofs.«127397_j26225070309871_2_alg».proof.Proof.RefRows

set_option maxRecDepth 16384
noncomputable section
namespace Cert.ReferenceIdeal.RefRows
open Cert.ReferenceIdeal Idealize.ShloMosaic Idealize.ShloMosaic.ValueIdx
open Facts₀ Facts

/-- The residual sum of one layer, on whole arrays: the reference's operations in its order. -/
def updArr (X : FVec Ideal S16384x1024 .f32) (wr : FVec Ideal S4x1024x1024 .f32) (br : FVec Ideal S4x1024 .f32)
    (wl : FVec Ideal S4x1024x1024 .f32) (bl : FVec Ideal S4x1024 .f32) (we : FVec Ideal S1024x4096 .f32)
    (be : FVec Ideal S1024 .f32) : FVec Ideal S16384x1024 .f32 :=
  addf X (addf (Host.dotGeneral dot_S16384x4096_S4096x1024_S16384x1024_1_0_0_1_n_n none
      (shapeCast S16384x4096 (mulf
        (addf (Host.dotGeneral dot_S16384x1024_S4x1024x1024_S16384x4x1024_1_2_0_01_n_n none X wr)
          (broadcastInDim S16384x4x1024 ![0, 1, 2] bcast_S1x4x1024_S16384x4x1024_0_1_2 (broadcastInDim S1x4x1024 ![1, 2] bcast_S4x1024_S1x4x1024_1_2 br)))
        (addf (Host.dotGeneral dot_S16384x1024_S4x1024x1024_S16384x4x1024_1_2_0_01_n_n none X wl)
          (broadcastInDim S16384x4x1024 ![0, 1, 2] bcast_S1x4x1024_S16384x4x1024_0_1_2 (broadcastInDim S1x4x1024 ![1, 2] bcast_S4x1024_S1x4x1024_1_2 bl))))
        shapeCasts_S16384x4x1024_S16384x4096)
      (transpose S4096x1024 [1, 0] we transposes_S1024x4096_S4096x1024_1_0))
    (broadcastInDim S16384x1024 ![0, 1] bcast_S1x1024_S16384x1024_0_1 (broadcastInDim S1x1024 ![1] bcast_S1024_S1x1024_1 be)))

/-- The column of row means of an array. -/
def meanCol (H : FVec Ideal S16384x1024 .f32) : FVec Ideal S16384x1 .f32 :=
  Host.divf (broadcastInDim S16384x1 ![0] bcast_S16384_S16384x1_0 (Host.reduceAdd H (constant S_ .f32 0x00000000#32) reducesTo_S16384x1024_S16384_d1 h_S_))
    (broadcastInDim S16384x1 ![] bcast_S_S16384x1 (constant S_ .f32 0x44800000#32))

/-- An array less its row means. -/
def centred (H : FVec Ideal S16384x1024 .f32) : FVec Ideal S16384x1024 .f32 :=
  subf H (broadcastInDim S16384x1024 ![0, 1] bcast_S16384x1_S16384x1024_0_1 (meanCol H))

/-- The normalisation of every row, on whole arrays. -/
def normArr (H : FVec Ideal S16384x1024 .f32) (g b : FVec Ideal S1024 .f32) : FVec Ideal S16384x1024 .f32 :=
  addf (mulf (mulf (subf H (broadcastInDim S16384x1024 ![0, 1] bcast_S16384x1_S16384x1024_0_1 (meanCol H)))
      (broadcastInDim S16384x1024 ![0, 1] bcast_S16384x1_S16384x1024_0_1 (Host.rsqrt (addf
        (Host.divf (broadcastInDim S16384x1 ![0] bcast_S16384_S16384x1_0 (Host.reduceAdd (mulf (centred H) (centred H)) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

/-- One layer of the reference on whole arrays. -/
def layerArr (X : FVec Ideal S16384x1024 .f32) (wr : FVec Ideal S4x1024x1024 .f32) (br : FVec Ideal S4x1024 .f32)
    (wl : FVec Ideal S4x1024x1024 .f32) (bl : FVec Ideal S4x1024 .f32) (we : FVec Ideal S1024x4096 .f32)
    (be g b : FVec Ideal S1024 .f32) : FVec Ideal S16384x1024 .f32 :=
  normArr (updArr X wr br wl bl we be) g b

/-- The reference's read-out on whole arrays. -/
def readoutArr (H : FVec Ideal S16384x1024 .f32) (wf : FVec Ideal S10x1024 .f32) (bf : FVec Ideal S10 .f32) : FVec Ideal S16384x10 .f32 :=
  addf (Host.dotGeneral dot_S16384x1024_S1024x10_S16384x10_1_0_0_1_n_n none H (transpose S1024x10 [1, 0] wf transposes_S10x1024_S1024x10_1_0))
    (broadcastInDim S16384x10 ![0, 1] bcast_S1x10_S16384x10_0_1 (broadcastInDim S1x10 ![1] bcast_S10_S1x10_1 bf))

/-- Row `r` of the reference's residual sum. -/
theorem updArr_apply (X : FVec Ideal S16384x1024 .f32) (wr : FVec Ideal S4x1024x1024 .f32) (br : FVec Ideal S4x1024 .f32)
    (wl : FVec Ideal S4x1024x1024 .f32) (bl : FVec Ideal S4x1024 .f32) (we : FVec Ideal S1024x4096 .f32)
    (be : FVec Ideal S1024 .f32) (r : Fin 16384) (q : Fin 1024) :
    updArr X wr br wl bl we be (ix2 r q)
      = BilinearNorm.residual (fun d => X (ix2 r d))
          (fun d k => wr (ix3 (BilinearNorm.headOf k) (BilinearNorm.dirOf k) d)) (fun k => br (ix2 (BilinearNorm.headOf k) (BilinearNorm.dirOf k)))
          (fun d k => wl (ix3 (BilinearNorm.headOf k) (BilinearNorm.dirOf k) d)) (fun k => bl (ix2 (BilinearNorm.headOf k) (BilinearNorm.dirOf k)))
          (fun k q => we (ix2 q k)) (fun q => be (ix1 q)) q := by
  unfold updArr BilinearNorm.residual BilinearNorm.proj
  simp only [addf_apply, mulf_apply, dot_back_apply, reshape_apply, dot3_apply]
  rw [bias2_apply _ _ _ (by decide : (1024 : Nat) ≠ 1)]
  refine congrArg _ (congrArg (· + _) (Finset.sum_congr rfl fun k _ => ?_))
  rw [bias3_apply, bias3_apply, transpose_ix2_apply]

theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-- The column of row means, at row `r`. -/
theorem meanCol_apply (H : FVec Ideal S16384x1024 .f32) (r : Fin 16384) (u : Fin 1) :
    meanCol H (ix2 r u) = BilinearNorm.mean (fun q => H (ix2 r q)) := by
  unfold meanCol BilinearNorm.mean
  rw [hostDivf_apply, col_apply, rowsum_apply, const_col_apply]
  rfl

theorem centred_apply (H : FVec Ideal S16384x1024 .f32) (r : Fin 16384) (q : Fin 1024) :
    centred H (ix2 r q) = H (ix2 r q) - BilinearNorm.mean (fun q => H (ix2 r q)) := by
  unfold centred
  rw [subf_apply, col_bcast_apply, meanCol_apply]

/-- Row `r` of the normalised array. -/
theorem normArr_apply (H : FVec Ideal S16384x1024 .f32) (g b : FVec Ideal S1024 .f32) (r : Fin 16384) (q : Fin 1024) :
    normArr H g b (ix2 r q) = BilinearNorm.normalize (fun q => H (ix2 r q)) (fun q => g (ix1 q)) (fun q => b (ix1 q)) q := by
  unfold normArr BilinearNorm.normalize BilinearNorm.variance
  rw [addf_apply, mulf_apply, mulf_apply, subf_apply, col_bcast_apply, col_bcast_apply, meanCol_apply, hostRsqrt_apply,
    addf_apply, hostDivf_apply, col_apply, rowsum_apply, const_col_apply, const_col_apply,
    bias2_apply _ _ _ (by decide : (1024 : Nat) ≠ 1), bias2_apply _ _ _ (by decide : (1024 : Nat) ≠ 1)]
  simp only [mulf_apply, centred_apply]
  rfl
/-- Row `r` of one layer of the reference. -/
theorem layerArr_apply (X : FVec Ideal S16384x1024 .f32) (wr : FVec Ideal S4x1024x1024 .f32) (br : FVec Ideal S4x1024 .f32)
    (wl : FVec Ideal S4x1024x1024 .f32) (bl : FVec Ideal S4x1024 .f32) (we : FVec Ideal S1024x4096 .f32)
    (be g b : FVec Ideal S1024 .f32) (r : Fin 16384) (q : Fin 1024) :
    layerArr X wr br wl bl we be g b (ix2 r q)
      = BilinearNorm.layer (fun d => X (ix2 r d))
          (fun d k => wr (ix3 (BilinearNorm.headOf k) (BilinearNorm.dirOf k) d)) (fun k => br (ix2 (BilinearNorm.headOf k) (BilinearNorm.dirOf k)))
          (fun d k => wl (ix3 (BilinearNorm.headOf k) (BilinearNorm.dirOf k) d)) (fun k => bl (ix2 (BilinearNorm.headOf k) (BilinearNorm.dirOf k)))
          (fun k q => we (ix2 q k)) (fun q => be (ix1 q)) (fun q => g (ix1 q)) (fun q => b (ix1 q)) q := by
  unfold layerArr BilinearNorm.layer
  rw [normArr_apply]
  simp only [updArr_apply]

/-- Row `r` of the reference's read-out. -/
theorem readoutArr_apply (H : FVec Ideal S16384x1024 .f32) (wf : FVec Ideal S10x1024 .f32) (bf : FVec Ideal S10 .f32)
    (r : Fin 16384) (o : Fin 10) :
    readoutArr H wf bf (ix2 r o) = BilinearNorm.readout (fun d => H (ix2 r d)) (fun d o => wf (ix2 o d)) (fun o => bf (ix1 o)) o := by
  unfold readoutArr BilinearNorm.readout
  rw [addf_apply, dot_out_apply, bias2_apply _ _ _ (by decide : (10 : Nat) ≠ 1)]
  refine congrArg (· + _) (Finset.sum_congr rfl fun d _ => ?_)
  rw [transpose_ix2_apply]

end Cert.ReferenceIdeal.RefRows
end
-- ==== Proof.RefValue.lean ====
/-
  The reference's run, read as the network of its arguments.

  The reference is a straight line of host operations; its generated run ends with the result buffer at the
  operations' composed term of the launch contents.  That term is two layers and the read-out on whole arrays
  (`RefLayer.lean`), hence the network of `SpecArrays.lean` of the nineteen argument arrays.
-/
import proofs.«127397_j26225070309871_2_alg».proof.Proof.RefLayer
import proofs.«127397_j26225070309871_2_alg».proof.Proof.SpecArrays
import proofs.«127397_j26225070309871_2_alg».proof.Proof.Gen.ReferenceIdeal.Run

set_option maxRecDepth 16384
noncomputable section
namespace Cert.ReferenceIdeal.RefValue
open Cert.ReferenceIdeal Idealize.ShloMosaic Idealize.ShloMosaic.ValueIdx Idealize.ShloMosaic.TcCoe Idealize.SL.Sem Cert.ReferenceIdeal.RefRows

theorem layerArr_eq (X : FVec Ideal S16384x1024 .f32) (wr : FVec Ideal S4x1024x1024 .f32) (br : FVec Ideal S4x1024 .f32)
    (wl : FVec Ideal S4x1024x1024 .f32) (bl : FVec Ideal S4x1024 .f32) (we : FVec Ideal S1024x4096 .f32)
    (be g b : FVec Ideal S1024 .f32) :
    layerArr X wr br wl bl we be g b = BilinearNorm.layerOfArgs X wr br wl bl we be g b := by
  funext i
  obtain ⟨r, q, rfl⟩ : ∃ (r : Fin 16384) (q : Fin 1024), i = ix2 r q := ⟨i 0, i 1, eq_ix2 i⟩
  exact layerArr_apply X wr br wl bl we be g b r q

theorem readoutArr_eq (H : FVec Ideal S16384x1024 .f32) (wf : FVec Ideal S10x1024 .f32) (bf : FVec Ideal S10 .f32) :
    readoutArr H wf bf = BilinearNorm.readoutOfArgs H wf bf := by
  funext i
  obtain ⟨r, o, rfl⟩ : ∃ (r : Fin 16384) (o : Fin 10), i = ix2 r o := ⟨i 0, i 1, eq_ix2 i⟩
  exact readoutArr_apply H wf bf r o

/-- The whole network of the arguments held by memory `m` on core `c`. -/
def net (m : (ℓ : Loc nD τ sig) → Buf (Elt Ideal) ℓ) (c : Dev nD) : S16384x10.Idx → EReal :=
  BilinearNorm.readoutOfArgs
    (BilinearNorm.layerOfArgs
      (BilinearNorm.layerOfArgs (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)))
      (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) (m ((c.tc : Thread nD τ).loc main_arg15)) (m ((c.tc : Thread nD τ).loc main_arg16)))
    (m ((c.tc : Thread nD τ).loc main_arg17)) (m ((c.tc : Thread nD τ).loc main_arg18))

/-- The reference's run: it terminates with its result at the network of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨(h c).1.trans (by
      show readoutArr (layerArr (layerArr _ _ _ _ _ _ _ _ _) _ _ _ _ _ _ _ _) _ _ = _
      rw [readoutArr_eq, layerArr_eq, layerArr_eq]
      rfl), (h c).2⟩) (Cert.ReferenceIdeal.Value.run (F := Ideal) m ρ)

end Cert.ReferenceIdeal.RefValue
end
-- ==== Proof.lean ====
/-
  A two-layer bilinear network with layer normalisation and a linear read-out: the kernel program against the
  reference, at the exact values.

  Each layer sends a row `x` of 1024 entries to the normalisation of `x + We · ((Wr x + br) ⊙ (Wl x + bl)) + be`,
  the two projections onto 4 × 1024 basis directions multiplied entry by entry; the read-out is `Wf h + bf` onto
  10 outputs.  The kernel program runs each layer as one kernel region over 64 blocks of 256 rows, the weights
  laid out flat and transposed by host operations, and fuses the read-out, padded to 128 columns, into the second
  region; the reference applies the same operations to whole arrays.  Every row of every intermediate array
  depends on the same row of the input only, and on the extended reals both programs apply the same operations in
  the same order to it: the matrix products are the same sums, the changes of float format are the identity, the
  padded columns are cut off.  So both results are one function of the nineteen arguments (`SpecArrays.lean`):
  `KernelValue.lean` reads the kernel program's result off its frame run, `RefValue.lean` the reference's off its
  run.  No finiteness of the inputs is used.  The three frame claims are the generated frames; the idealization
  rewrote no operation.
-/
import proofs.«127397_j26225070309871_2_alg».proof.Defs
import proofs.«127397_j26225070309871_2_alg».proof.Proof.Gen.Kernel
import proofs.«127397_j26225070309871_2_alg».proof.Proof.Gen.Kernel.Frame
import proofs.«127397_j26225070309871_2_alg».proof.Proof.Gen.KernelIdeal
import proofs.«127397_j26225070309871_2_alg».proof.Proof.Gen.KernelIdeal.Frame
import proofs.«127397_j26225070309871_2_alg».proof.Proof.Gen.ReferenceIdeal
import proofs.«127397_j26225070309871_2_alg».proof.Proof.Gen.ReferenceIdeal.Run
import proofs.«127397_j26225070309871_2_alg».proof.Proof.Gen.Pre_finite_inputs
import proofs.«127397_j26225070309871_2_alg».proof.Proof.KernelValue
import proofs.«127397_j26225070309871_2_alg».proof.Proof.RefValue
import Idealize.ShloMosaic.Adequacy
import Idealize.ShloMosaic.Init

noncomputable section

namespace Cert.Proof

open Idealize.ShloMosaic Idealize.SL.Sem

/-- From memories agreeing on the arguments, the two programs' networks of their arguments are one array. -/
theorem nets_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RefValue.net m' c = Cert.KernelIdeal.KernelValue.net m c := by
  obtain ⟨a0, a1, a2, a3, a4, a5, a6, a7, a8, a9, a10, a11, a12, a13, a14, a15, a16, a17, a18⟩ := hagree
  unfold Cert.ReferenceIdeal.RefValue.net Cert.KernelIdeal.KernelValue.net
  rw [a0, a1, a2, a3, a4, a5, a6, a7, a8, a9, a10, a11, a12, a13, a14, a15, a16, a17, a18]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.KernelValue.net m c, Cert.KernelIdeal.KernelValue.run m ρ,
    (θ_run Cert.ReferenceIdeal.defs _ _).mono
      (fun _ h c => ⟨(h c).1.trans (nets_agree m m' c (hagree c)), (h c).2⟩)
      (Cert.ReferenceIdeal.RefValue.run m' ρ')⟩⟩

end Cert.Proof

end
